-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S4x128x128 .f32) (main_arg3 : FVec F S4x128x128 .f32) (main_arg4 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S128 : Shape := ⟨1, ![128]⟩

abbrev nBuf : Space → Nat
  | .hbm => 113
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S4x128x128, .f32⟩
  | .hbm, ⟨3, _⟩ => ⟨S4x128x128, .f32⟩
  | .hbm, ⟨4, _⟩ => ⟨S4x128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S4x128x128, .f32⟩
  | .hbm, ⟨31, _⟩ => ⟨S4x128x128, .f32⟩
  | .hbm, ⟨32, _⟩ => ⟨S1x128x128, .f32⟩
  | .hbm, ⟨33, _⟩ => ⟨S128x128, .f32⟩
  | .hbm, ⟨34, _⟩ => ⟨S50000x128, .bf16⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000x128, .bf16⟩
  | .hbm, ⟨44, _⟩ => ⟨S650000x128, .f32⟩
  | .hbm, ⟨45, _⟩ => ⟨S_, .f32⟩
  | .hbm, ⟨46, _⟩ => ⟨S50000x128, .f32⟩
  | .hbm, ⟨47, _⟩ => ⟨S650000x1, .i32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S50000x128, .bf16⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x128, .bf16⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S50000x128, .bf16⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000x128, .bf16⟩
  | .hbm, ⟨84, _⟩ => ⟨S650000x128, .f32⟩
  | .hbm, ⟨85, _⟩ => ⟨S_, .f32⟩
  | .hbm, ⟨86, _⟩ => ⟨S50000x128, .f32⟩
  | .hbm, ⟨87, _⟩ => ⟨S650000x1, .i32⟩
  | .hbm, ⟨88, _⟩ => ⟨S50000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S50000x128, .bf16⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000x128, .bf16⟩
  | .hbm, ⟨104, _⟩ => ⟨S650000x128, .f32⟩
  | .hbm, ⟨105, _⟩ => ⟨S_, .f32⟩
  | .hbm, ⟨106, _⟩ => ⟨S50000x128, .f32⟩
  | .hbm, ⟨107, _⟩ => ⟨S650000x1, .i32⟩
  | .hbm, ⟨108, _⟩ => ⟨S50000x128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x1, .f32⟩
  | .local _ .vmem, ⟨27, _⟩ => ⟨S5000x1, .f32⟩
  | .local _ .vmem, ⟨28, _⟩ => ⟨S1x128, .f32⟩
  | .local _ .vmem, ⟨29, _⟩ => ⟨S5000x128, .bf16⟩
  | .local _ .vmem, ⟨30, _⟩ => ⟨S5000x128, .bf16⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_9 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_c_13 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  transposes_S4x128x128_S4x128x128_0_2_1 : S4x128x128.Transposes [0, 2, 1] S4x128x128
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  slices_S4x128x128_S1x128x128_1_0_0 : S4x128x128.Slices ![1, 0, 0] S1x128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_2_0_0 : S4x128x128.Slices ![2, 0, 0] S1x128x128
  slices_S4x128_S1x128_1_0 : S4x128.Slices ![1, 0] S1x128
  slices_S4x128x128_S1x128x128_3_0_0 : S4x128x128.Slices ![3, 0, 0] S1x128x128
  slices_S4x128_S1x128_2_0 : S4x128.Slices ![2, 0] S1x128
  slices_S4x128_S1x128_3_0 : S4x128.Slices ![3, 0] S1x128
  scatter_S50000_S650000x1_S650000_n_0_0_1_wf : ScatterDims.WF S50000 S650000x1 S650000 [] [0] [0] 1
  dot_S4x128x128_S4x128x128_S4x128x128_2_1_1_2_0_0_wf : DotDims.WF S4x128x128 S4x128x128 S4x128x128 [2] [1] [1] [2] [0] [0]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .bf16 = 32 ∨ (Rect.block (s := S50000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .bf16 = 32 ∨ (Rect.block (s := S50000x128) S5000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S4x128x128_S4x128x128_S4x128x128_2_1_1_2_0_0 : DotDims S4x128x128 S4x128x128 S4x128x128 where
  lhsContracting := [2]
  rhsContracting := [1]
  lhsNonContracting := [1]
  rhsNonContracting := [2]
  lhsBatch := [0]
  rhsBatch := [0]
  wf := dot_S4x128x128_S4x128x128_S4x128x128_2_1_1_2_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S650000x128 : Shape := ⟨2, ![650000, 128]⟩
abbrev S1x128 : Shape := ⟨2, ![1, 128]⟩
abbrev S128 : Shape := ⟨1, ![128]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128x128, .f32⟩
  | 4 => ⟨S4x128, .f32⟩
  | 5 => ⟨S50000, .i32⟩
  | 6 => ⟨S1x600000, .i32⟩
  | 7 => ⟨S600000, .i32⟩
  | 8 => ⟨S650000, .i32⟩
  | 9 => ⟨S1x600000, .i32⟩
  | 10 => ⟨S600000, .i32⟩
  | 11 => ⟨S650000, .i32⟩
  | 12 => ⟨S_, .f32⟩
  | 13 => ⟨S650000, .f32⟩
  | 14 => ⟨S_, .f32⟩
  | 15 => ⟨S50000, .f32⟩
  | 16 => ⟨S650000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S1x128x128, .f32⟩
  | 49 => ⟨S128x128, .f32⟩
  | 50 => ⟨S128x128, .f32⟩
  | 51 => ⟨S50000x128, .f32⟩
  | 52 => ⟨S1x128x128, .f32⟩
  | 53 => ⟨S128x128, .f32⟩
  | 54 => ⟨S128x128, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128x128, .f32⟩
  | 78 => ⟨S128x128, .f32⟩
  | 79 => ⟨S128x128, .f32⟩
  | 80 => ⟨S50000x128, .f32⟩
  | 81 => ⟨S1x128x128, .f32⟩
  | 82 => ⟨S128x128, .f32⟩
  | 83 => ⟨S128x128, .f32⟩
  | 84 => ⟨S50000x128, .f32⟩
  | 85 => ⟨S_, .i32⟩
  | 86 => ⟨S650000, .i32⟩
  | 87 => ⟨S650000, .i1⟩
  | 88 => ⟨S_, .i32⟩
  | 89 => ⟨S650000, .i32⟩
  | 90 => ⟨S650000, .i32⟩
  | 91 => ⟨S650000, .i32⟩
  | 92 => ⟨S650000x1, .i32⟩
  | 93 => ⟨S650000x128, .f32⟩
  | 94 => ⟨S650000x1, .f32⟩
  | 95 => ⟨S650000x128, .f32⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128x128, .f32⟩
  | 107 => ⟨S128x128, .f32⟩
  | 108 => ⟨S128x128, .f32⟩
  | 109 => ⟨S50000x128, .f32⟩
  | 110 => ⟨S1x128x128, .f32⟩
  | 111 => ⟨S128x128, .f32⟩
  | 112 => ⟨S128x128, .f32⟩
  | 113 => ⟨S50000x128, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x128, .f32⟩
  | 123 => ⟨S650000x1, .f32⟩
  | 124 => ⟨S650000x128, .f32⟩
  | 125 => ⟨S650000x128, .f32⟩
  | 126 => ⟨S_, .f32⟩
  | 127 => ⟨S50000x128, .f32⟩
  | _ => ⟨S50000x128, .f32⟩

abbrev hbmTy0_1 (i : Nat) : BufTy := match i % 128 with
  | 0 => ⟨S650000x1, .i32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S128x128, .f32⟩
  | 10 => ⟨S50000x128, .f32⟩
  | 11 => ⟨S1x128x128, .f32⟩
  | 12 => ⟨S128x128, .f32⟩
  | 13 => ⟨S128x128, .f32⟩
  | 14 => ⟨S50000x128, .f32⟩
  | 15 => ⟨S_, .i32⟩
  | 16 => ⟨S650000, .i32⟩
  | 17 => ⟨S650000, .i1⟩
  | 18 => ⟨S_, .i32⟩
  | 19 => ⟨S650000, .i32⟩
  | 20 => ⟨S650000, .i32⟩
  | 21 => ⟨S650000, .i32⟩
  | 22 => ⟨S650000x1, .i32⟩
  | 23 => ⟨S650000x128, .f32⟩
  | 24 => ⟨S650000x1, .f32⟩
  | 25 => ⟨S650000x128, .f32⟩
  | 26 => ⟨S650000x128, .f32⟩
  | 27 => ⟨S_, .f32⟩
  | 28 => ⟨S50000x128, .f32⟩
  | 29 => ⟨S650000x1, .i32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_13 : Ref sig .tc := ⟨.hbm, 114, rfl⟩
abbrev main_v92 : Ref sig .tc := ⟨.hbm, 115, rfl⟩
abbrev main_v93 : Ref sig .tc := ⟨.hbm, 116, rfl⟩
abbrev main_c_14 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_c_16 : Ref sig .tc := ⟨.hbm, 143, rfl⟩
abbrev main_v118 : Ref sig .tc := ⟨.hbm, 144, rfl⟩
abbrev main_v119 : Ref sig .tc := ⟨.hbm, 145, rfl⟩
abbrev main_c_17 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_18 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KerRun.lean ====
/-
  The idealized kernel program runs, and its result buffer ends at the last boundary's contents.

  @main is twelve segments: host stretches and the five pallas regions. The launch theorem for such a program carries
  every unscoped buffer through the segments; at the end each buffer holds the contents the fold of the segments
  assigns it (`W12`). The frame claim keeps only the argument buffers of that final state; here the result buffer
  `main_v88` is kept as well, at `W12 … main_v88`, which is what the value of the program is read from.
-/
import proofs.«121010_j69320772158261_2_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel program terminates without a fault; the result buffer ends at
    the fold's contents and the arguments end as launched. -/
theorem run_named : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

end Cert.KernelIdeal.Run

end
-- ==== Proof.Spec.lean ====
/-
  A stack of graph-convolution layers, as pure mathematics over the extended reals.

  A layer takes node features X : nodes × features.  With edge list (gs e → target test "hit e i"), node scale dv and the
  two weight matrices LW, GW and bias b, the layer in its textbook arrangement is

      X' i j = (∑ over edges e landing at i of  ((X · LWᵀ) · GWᵀ) (gs e) j · (dv (gs e) · dv (gd e)))  +  b j ,

  and in the factored arrangement: fold the weights first (W k j = ∑ m, GW j m · LW m k), scale rows by dv before the
  edge sum, and scale the edge sum by dv once more:

      H i j = (∑ k, X i k · W k j) · dv i ,     A i j = ∑ over edges e landing at i of H (gs e) j ,     X' i j = A i j · dv i + b j .

  The two agree whenever every edge landing at i has gd e = i and all data are finite: then both are the real number
  ∑_e ∑_m ∑_k X (gs e) k · LW m k · GW j m · dv (gs e) · dv i  +  b j  (distributivity and exchange of finite sums, which
  hold for reals and fail at infinities, so finiteness is used).
-/
import Mathlib.Data.EReal.Operations
import Mathlib.Algebra.BigOperators.Ring.Finset
import Mathlib.Algebra.BigOperators.Group.Finset.Sigma

noncomputable section

namespace Cert.Gcn

open Finset

variable {ι κ ε : Type} [Fintype ι] [Fintype κ] [Fintype ε]

/-- Every entry is a real number. -/
def Fin1 {α : Type} (f : α → EReal) : Prop := ∀ a, ∃ r : ℝ, f a = (r : EReal)
def Fin2 {α β : Type} (f : α → β → EReal) : Prop := ∀ a b, ∃ r : ℝ, f a b = (r : EReal)

/-- The two linear maps of a layer applied one after the other: (X · LWᵀ) · GWᵀ. -/
def lin (LW GW : κ → κ → EReal) (X : ι → κ → EReal) : ι → κ → EReal :=
  fun i j => ∑ m, (∑ k, X i k * LW m k) * GW j m

/-- The folded weight, transposed: W k j = ∑ m, GW j m · LW m k. -/
def comb (LW GW : κ → κ → EReal) : κ → κ → EReal :=
  fun k j => ∑ m, GW j m * LW m k

/-- The layer, textbook arrangement. -/
def refLayer (gs gd : ε → ι) (hit : ε → ι → Prop) [∀ e i, Decidable (hit e i)] (dv : ι → EReal)
    (LW GW : κ → κ → EReal) (b : κ → EReal) (X : ι → κ → EReal) : ι → κ → EReal :=
  fun i j => (∑ e ∈ univ.filter (fun e => hit e i), lin LW GW X (gs e) j * (dv (gs e) * dv (gd e))) + b j

/-- Row-scaled product with a folded weight. -/
def kerH (dv : ι → EReal) (W : κ → κ → EReal) (X : ι → κ → EReal) : ι → κ → EReal :=
  fun i j => (∑ k, X i k * W k j) * dv i

/-- The edge sum. -/
def kerAgg (gs : ε → ι) (hit : ε → ι → Prop) [∀ e i, Decidable (hit e i)] (H : ι → κ → EReal) : ι → κ → EReal :=
  fun i j => ∑ e ∈ univ.filter (fun e => hit e i), H (gs e) j

/-- Scale the edge sum and add the bias. -/
def kerIn (dv : ι → EReal) (b : κ → EReal) (A : ι → κ → EReal) : ι → κ → EReal :=
  fun i j => A i j * dv i + b j

/-- The layer, factored arrangement. -/
def kerLayer (gs : ε → ι) (hit : ε → ι → Prop) [∀ e i, Decidable (hit e i)] (dv : ι → EReal)
    (LW GW : κ → κ → EReal) (b : κ → EReal) (X : ι → κ → EReal) : ι → κ → EReal :=
  kerIn dv b (kerAgg gs hit (kerH dv (comb LW GW) X))

theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- One layer: the two arrangements agree on finite data, and the result is finite. -/
theorem layer_eq (gs gd : ε → ι) (hit : ε → ι → Prop) [∀ e i, Decidable (hit e i)] (dv : ι → EReal)
    (LW GW : κ → κ → EReal) (b : κ → EReal) (X : ι → κ → EReal)
    (hgd : ∀ e i, hit e i → gd e = i) (hdv : Fin1 dv) (hLW : Fin2 LW) (hGW : Fin2 GW) (hb : Fin1 b) (hX : Fin2 X) :
    kerLayer gs hit dv LW GW b X = refLayer gs gd hit dv LW GW b X ∧ Fin2 (refLayer gs gd hit dv LW GW b X) := by
  classical
  choose dv' hdv' using hdv
  choose LW' hLW' using hLW
  choose GW' hGW' using hGW
  choose b' hb' using hb
  choose X' hX' using hX
  have hR : ∀ i j, refLayer gs gd hit dv LW GW b X i j
      = (((∑ e ∈ univ.filter (fun e => hit e i), (∑ m, (∑ k, X' (gs e) k * LW' m k) * GW' j m) * (dv' (gs e) * dv' i)) + b' j : ℝ) : EReal) := by
    intro i j
    unfold refLayer lin
    rw [EReal.coe_add, coe_sum, hb']
    congr 1
    refine Finset.sum_congr rfl fun e he => ?_
    rw [hgd e i (Finset.mem_filter.mp he).2]
    simp only [hX', hLW', hGW', hdv', ← EReal.coe_mul, ← coe_sum]
  have hK : ∀ i j, kerLayer gs hit dv LW GW b X i j
      = (((∑ e ∈ univ.filter (fun e => hit e i), (∑ k, X' (gs e) k * (∑ m, GW' j m * LW' m k)) * dv' (gs e)) * dv' i + b' j : ℝ) : EReal) := by
    intro i j
    unfold kerLayer kerIn kerAgg kerH comb
    rw [EReal.coe_add, EReal.coe_mul, coe_sum, hb', hdv']
    congr 2
    refine Finset.sum_congr rfl fun e _ => ?_
    simp only [hX', hLW', hGW', hdv', ← EReal.coe_mul, ← coe_sum]
  refine ⟨?_, fun i j => ⟨_, hR i j⟩⟩
  funext i j
  rw [hK, hR]
  congr 2
  rw [Finset.sum_mul]
  refine Finset.sum_congr rfl fun e _ => ?_
  have : (∑ k, X' (gs e) k * ∑ m, GW' j m * LW' m k) = ∑ m, (∑ k, X' (gs e) k * LW' m k) * GW' j m := by
    simp only [Finset.mul_sum, Finset.sum_mul]
    rw [Finset.sum_comm]
    refine Finset.sum_congr rfl fun m _ => Finset.sum_congr rfl fun k _ => ?_
    ring
  rw [this]; ring

/-- Four layers, textbook arrangement. -/
def refNet (gs gd : ε → ι) (hit : ε → ι → Prop) [∀ e i, Decidable (hit e i)] (dv : ι → EReal)
    (LW GW : Fin 4 → κ → κ → EReal) (b : Fin 4 → κ → EReal) (X : ι → κ → EReal) : ι → κ → EReal :=
  refLayer gs gd hit dv (LW 3) (GW 3) (b 3) (refLayer gs gd hit dv (LW 2) (GW 2) (b 2)
    (refLayer gs gd hit dv (LW 1) (GW 1) (b 1) (refLayer gs gd hit dv (LW 0) (GW 0) (b 0) X)))

/-- Four layers, factored arrangement. -/
def kerNet (gs : ε → ι) (hit : ε → ι → Prop) [∀ e i, Decidable (hit e i)] (dv : ι → EReal)
    (LW GW : Fin 4 → κ → κ → EReal) (b : Fin 4 → κ → EReal) (X : ι → κ → EReal) : ι → κ → EReal :=
  kerLayer gs hit dv (LW 3) (GW 3) (b 3) (kerLayer gs hit dv (LW 2) (GW 2) (b 2)
    (kerLayer gs hit dv (LW 1) (GW 1) (b 1) (kerLayer gs hit dv (LW 0) (GW 0) (b 0) X)))

theorem net_eq (gs gd : ε → ι) (hit : ε → ι → Prop) [∀ e i, Decidable (hit e i)] (dv : ι → EReal)
    (LW GW : Fin 4 → κ → κ → EReal) (b : Fin 4 → κ → EReal) (X : ι → κ → EReal)
    (hgd : ∀ e i, hit e i → gd e = i) (hdv : Fin1 dv) (hLW : ∀ l, Fin2 (LW l)) (hGW : ∀ l, Fin2 (GW l))
    (hb : ∀ l, Fin1 (b l)) (hX : Fin2 X) :
    kerNet gs hit dv LW GW b X = refNet gs gd hit dv LW GW b X := by
  unfold kerNet refNet
  obtain ⟨e0, f0⟩ := layer_eq gs gd hit dv (LW 0) (GW 0) (b 0) X hgd hdv (hLW 0) (hGW 0) (hb 0) hX
  rw [e0]
  obtain ⟨e1, f1⟩ := layer_eq gs gd hit dv (LW 1) (GW 1) (b 1) _ hgd hdv (hLW 1) (hGW 1) (hb 1) f0
  rw [e1]
  obtain ⟨e2, f2⟩ := layer_eq gs gd hit dv (LW 2) (GW 2) (b 2) _ hgd hdv (hLW 2) (hGW 2) (hb 2) f1
  rw [e2]
  exact (layer_eq gs gd hit dv (LW 3) (GW 3) (b 3) _ hgd hdv (hLW 3) (hGW 3) (hb 3) f2).1

end Cert.Gcn

end
-- ==== Proof.Edges.lean ====
/-
  Edges of the graph as the host operations see them.

  A gather x[idx] reads, for each edge e, the ROW the start index names: the 32-bit word read as a signed integer and
  clamped into [0, N-1].  Before the gather the program normalises the index the numpy way: a negative index has N added.
  A scatter-add lands the update of edge e at row i exactly when its start index, read signed and NOT clamped, is i;
  an update whose start is outside [0, N) is dropped.  So an edge whose (raw) target index lands at i has a
  non-negative target, normalisation leaves it alone, and the gather at the normalised index reads row i itself.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx Finset

abbrev Node := Fin 50000
abbrev Feat := Fin 128
abbrev Edge := Fin 650000

/-- numpy's index normalisation at one word: a negative index counts from the end (N = 50000). -/
def norm32 (v : BitVec 32) : BitVec 32 := Scalar.select (IntOp.cmpi .slt v 0#32) (IntOp.addi v 50000#32) v

/-- The row a gather reads for the start word v: signed, clamped into [0, 49999]. -/
def row32 (v : BitVec 32) : Node := ⟨min v.toInt.toNat 49999, by omega⟩

/-- The row edge e gathers, from the raw index array. -/
def gsOf (src : Edge → BitVec 32) : Edge → Node := fun e => row32 (norm32 (src e))

/-- Edge e's update lands at row i: its raw target index, read signed, is i. -/
def hitOf (dst : Edge → BitVec 32) : Edge → Node → Prop := fun e i => (dst e).toInt = (i.val : Int)

instance (dst : Edge → BitVec 32) (e : Edge) (i : Node) : Decidable (hitOf dst e i) := by unfold hitOf; infer_instance

/-- An edge landing at row i gathers row i through its normalised target index. -/
theorem gsOf_of_hit (dst : Edge → BitVec 32) (e : Edge) (i : Node) (h : hitOf dst e i) : gsOf dst e = i := by
  unfold hitOf at h
  unfold gsOf
  have hn : norm32 (dst e) = dst e := by
    unfold norm32 IntOp.cmpi
    have hs : (dst e).slt 0#32 = false := by
      simp only [BitVec.slt, BitVec.toInt_zero, h]
      simp
    simp only [hs]
    rfl
  rw [hn]
  apply Fin.ext
  show min (dst e).toInt.toNat 49999 = i.val
  rw [h]
  have := i.isLt
  simp only [Int.toNat_natCast]
  omega

/-! ## The three host operations read at an index -/

section Reads
variable {α : Type}

/-- Gather of whole rows: operand [N, D], start indices [E, 1], result [E, D]. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column j of the gathered array is the operand at (the row the start index of e names, j). -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowsDims N E D wf) x idx (ix2 e j)
      = x (ix2 ⟨min (idx (ix2 e ⟨0, Nat.one_pos⟩)).toInt.toNat (N - 1), by omega⟩ j) := by
  unfold Host.gather
  congr 1
  funext a
  refine Fin.ext ?_
  match a with
  | ⟨0, h0⟩ =>
    show (rowsDims N E D wf).start (ix2 e j) idx ⟨0, h0⟩ + (rowsDims N E D wf).batchCoord (ix2 e j) ⟨0, h0⟩
        + (rowsDims N E D wf).offCoord (ix2 e j) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowsDims N E D wf).startIndexMap from List.mem_singleton.mpr rfl)]
    have hsi : (rowsDims N E D wf).siIdx (ix2 e j) ⟨List.idxOf (⟨0, h0⟩ : Fin 2) (rowsDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    show (rowsDims N E D wf).start (ix2 e j) idx ⟨1, h1⟩ + (rowsDims N E D wf).batchCoord (ix2 e j) ⟨1, h1⟩
        + (rowsDims N E D wf).offCoord (ix2 e j) ⟨1, h1⟩ = j.val
    rw [GatherDims.batchCoord_eq_zero _ _ _ List.not_mem_nil]
    have hs : (rowsDims N E D wf).start (ix2 e j) idx ⟨1, h1⟩ = 0 := by
      unfold GatherDims.start
      rw [dif_neg (show (⟨1, h1⟩ : Fin 2) ∉ (rowsDims N E D wf).startIndexMap from fun h => Nat.one_ne_zero (congrArg Fin.val (List.mem_singleton.mp h)))]
    have ho : (rowsDims N E D wf).offCoord (ix2 e j) ⟨1, h1⟩ = j.val := by
      unfold GatherDims.offCoord
      rw [dif_pos ((GatherDims.mem_sKept _ _).mpr ⟨fun h => Nat.one_ne_zero (congrArg Fin.val (List.mem_singleton.mp h)), List.not_mem_nil⟩)]
      rfl
    rw [hs, ho]
    omega

/-- Gather of single entries: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- Scatter-add of whole rows: operand [N, D], scatter indices [E, 1], updates [E, D]. -/
abbrev rowsAddDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Where the update (e, j') of the row scatter-add lands: at (i, j) exactly when the start index of edge e, read
    signed, is i and the column is unchanged.  On axis 0 the start is the start word and the window coordinate is 0
    (an inserted axis); on axis 1 the start is 0 and the window coordinate is the update's column. -/
private theorem rowsAdd_resultIdx_iff {N E D w : Nat}
    (wf : ScatterDims.WF ⟨2, ![N, D]⟩ ⟨2, ![E, 1]⟩ ⟨2, ![E, D]⟩ [1] [0] [0] 1)
    (idx : IVec ⟨2, ![E, 1]⟩ w) (e : Fin E) (j' : Fin D) (i : Fin N) (j : Fin D) :
    (rowsAddDims N E D wf).resultIdx? (ix2 e j') idx = some (ix2 i j)
      ↔ (idx (ix2 e ⟨0, Nat.one_pos⟩)).toInt = (i.val : Int) ∧ j' = j := by
  have hs0 : ∀ h0, (rowsAddDims N E D wf).start (ix2 e j') idx ⟨0, h0⟩ = (idx (ix2 e ⟨0, Nat.one_pos⟩)).toInt := by
    intro h0
    unfold ScatterDims.start
    rw [dif_pos (show (⟨0, h0⟩ : Fin 2) ∈ (rowsAddDims N E D wf).scatterDimsToOperandDims from List.mem_singleton.mpr rfl)]
    have hsi : (rowsAddDims N E D wf).siIdx (ix2 e j') ⟨List.idxOf (⟨0, h0⟩ : Fin 2) (rowsAddDims N E D wf).scatterDimsToOperandDims,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  have hs1 : ∀ h1, (rowsAddDims N E D wf).start (ix2 e j') idx ⟨1, h1⟩ = 0 := by
    intro h1
    unfold ScatterDims.start
    rw [dif_neg (show (⟨1, h1⟩ : Fin 2) ∉ (rowsAddDims N E D wf).scatterDimsToOperandDims from
      fun h => Nat.one_ne_zero (congrArg Fin.val (List.mem_singleton.mp h)))]
  have hw0 : ∀ h0, (rowsAddDims N E D wf).window (ix2 e j') ⟨0, h0⟩ = 0 := by
    intro h0
    unfold ScatterDims.window
    rw [dif_neg (show (⟨0, h0⟩ : Fin 2) ∉ (rowsAddDims N E D wf).sKept from
      fun h => of_decide_eq_true (List.mem_filter.mp h).2 (List.mem_singleton.mpr rfl))]
  have hw1 : ∀ h1, (rowsAddDims N E D wf).window (ix2 e j') ⟨1, h1⟩ = j'.val := by
    intro h1
    unfold ScatterDims.window
    rw [dif_pos (show (⟨1, h1⟩ : Fin 2) ∈ (rowsAddDims N E D wf).sKept from
      List.mem_filter.mpr ⟨List.mem_finRange _, decide_eq_true
        (fun h => Nat.one_ne_zero (congrArg Fin.val (List.mem_singleton.mp h)))⟩)]
    rfl
  unfold ScatterDims.resultIdx?
  split
  · rename_i h
    rw [Option.some.injEq]
    constructor
    · intro hf
      have h0 := congrArg Fin.val (congrFun hf ⟨0, Nat.two_pos⟩)
      have h1 := congrArg Fin.val (congrFun hf ⟨1, Nat.one_lt_two⟩)
      have hh0 := (h ⟨0, Nat.two_pos⟩).1
      simp only [hs0, hw0, hs1, hw1] at h0 h1 hh0
      have h0' : ((idx (ix2 e ⟨0, Nat.one_pos⟩)).toInt + ((0 : Nat) : Int)).toNat = i.val := h0
      have h1' : ((0 : Int) + (j'.val : Int)).toNat = j.val := h1
      refine ⟨by omega, Fin.ext (by omega)⟩
    · rintro ⟨hi, rfl⟩
      funext a
      refine Fin.ext ?_
      match a with
      | ⟨0, h0⟩ =>
        show ((rowsAddDims N E D wf).start (ix2 e j') idx ⟨0, h0⟩ + ((rowsAddDims N E D wf).window (ix2 e j') ⟨0, h0⟩ : Nat)).toNat = i.val
        rw [hs0, hw0, hi]; omega
      | ⟨1, h1⟩ =>
        show ((rowsAddDims N E D wf).start (ix2 e j') idx ⟨1, h1⟩ + ((rowsAddDims N E D wf).window (ix2 e j') ⟨1, h1⟩ : Nat)).toNat = j'.val
        rw [hs1, hw1]; omega
  · rename_i h
    constructor
    · intro hf; exact absurd hf (by simp)
    · rintro ⟨hi, rfl⟩
      exfalso
      apply h
      intro a
      match a with
      | ⟨0, h0⟩ =>
        rw [hs0, hw0, hi]
        have : (⟨2, ![N, D]⟩ : Shape).size ⟨0, h0⟩ = N := rfl
        rw [this]
        have := i.isLt
        omega
      | ⟨1, h1⟩ =>
        rw [hs1, hw1]
        have : (⟨2, ![N, D]⟩ : Shape).size ⟨1, h1⟩ = D := rfl
        rw [this]
        have := j'.isLt
        omega

/-- At the ideal instance, row i, column j after the scatter-add is the operand's entry plus the sum, over the edges
    whose start index read signed is i, of the update's entry (e, j). -/
theorem scatterAdd_rows_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (j : Fin D) :
    Host.scatterAdd (F := Ideal) (rowsAddDims N E D wf) x idx upd (ix2 i j)
      = x (ix2 i j) + ∑ e ∈ univ.filter (fun e : Fin E => (idx (ix2 e ⟨0, Nat.one_pos⟩)).toInt = (i.val : Int)), upd (ix2 e j) := by
  unfold Host.scatterAdd
  rw [Ideal.hostScatterAdd_def]
  unfold Ideal.hostScatterAdd
  congr 1
  symm
  refine Finset.sum_bij (fun e _ => ix2 e j) ?_ ?_ ?_ ?_
  · intro e he
    simp only [mem_filter, mem_univ, true_and] at he ⊢
    exact (rowsAdd_resultIdx_iff wf idx e j i j).mpr ⟨he, rfl⟩
  · intro e1 _ e2 _ h
    exact congrFun h ⟨0, Nat.two_pos⟩
  · intro u hu
    simp only [mem_filter, mem_univ, true_and] at hu
    rw [eq_ix2 u] at hu
    obtain ⟨h1, h2⟩ := (rowsAdd_resultIdx_iff wf idx (u 0) (u 1) i j).mp hu
    refine ⟨u 0, mem_filter.mpr ⟨mem_univ _, h1⟩, ?_⟩
    show ix2 (u 0) j = u
    rw [← h2]
    exact (eq_ix2 u).symm
  · intro e _
    rfl

end Reads

end Cert.Gcn

end
-- ==== Proof.RefValue.lean ====
/-
  The reference program's result, read at an index, is four graph-convolution layers in the textbook arrangement.

  Once, the program computes the two raw index arrays (source and target word of every edge, the self loops appended)
  and the node scale.  Each of its four layers is then the same text: two matrix products (by the transposed weights),
  a gather of rows at the normalised source index, a product with the edge weight (the scale at the source row times the
  scale at the row the normalised target index names), a scatter-add of those rows into zeros at the raw target index,
  and the bias.  Read at (p, q) that is: the sum, over the edges whose raw target index read signed is p, of the doubly
  transformed source row's entry q times the edge weight, plus the bias's entry q.  The raw index arrays and the scale
  are kept opaque throughout: nothing below looks inside them.
-/
import proofs.«121010_j69320772158261_2_alg».proof.Proof.RefReadP
import proofs.«121010_j69320772158261_2_alg».proof.Proof.Spec
import proofs.«121010_j69320772158261_2_alg».proof.Proof.Edges
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.Gcn Idealize.ShloMosaic Idealize.ShloMosaic.ValueIdx

/-! ## The opaque data: raw source and target words, node scale -/

/-- edge e's raw source index, raw target index, and node i's scale 1/sqrt(deg), as the reference computes them -/
def src (a1 : (⟨S2x600000, .i32⟩ : BufTy).Contents (Elt Ideal)) : Edge → BitVec 32 :=
  fun e => val_main_v3 (F := Ideal) a1 (ix1 e)
def dst (a1 : (⟨S2x600000, .i32⟩ : BufTy).Contents (Elt Ideal)) : Edge → BitVec 32 :=
  fun e => val_main_v6 (F := Ideal) a1 (ix1 e)
def dv (a1 : (⟨S2x600000, .i32⟩ : BufTy).Contents (Elt Ideal)) : Node → EReal :=
  fun i => val_main_v16 (F := Ideal) a1 (ix1 i)

/-! ## One layer over variables -/

/-- A [50000, 128] array times a [128, 128] matrix, at an index: the sum over the contracted axis. -/
theorem dot_apply (l : (⟨S50000x128, .f32⟩ : BufTy).Contents (Elt Ideal)) (r : (⟨S128x128, .f32⟩ : BufTy).Contents (Elt Ideal))
    (p : Node) (j : Feat) :
    Host.dotGeneral (F := Ideal) (φ₁ := .f32) (φ₂ := .f32) dot_S50000x128_S128x128_S50000x128_1_0_0_1_n_n none l r (ix2 p j)
      = ∑ k : Feat, l (ix2 p k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p j)
      ((ValueIdx.contrEquiv1 dot_S50000x128_S128x128_S50000x128_1_0_0_1_n_n 128 rfl rfl).symm k) = ix2 p k :=
    funext fun a => Fin.ext (by
      match a with
      | ⟨0, _⟩ => exact lhs_main_v35_0 _ _
      | ⟨1, _⟩ => exact (lhs_main_v35_1 _ _).trans hk)
  have er : dot_S50000x128_S128x128_S50000x128_1_0_0_1_n_n.rhsIdx (ix2 p j)
      ((ValueIdx.contrEquiv1 dot_S50000x128_S128x128_S50000x128_1_0_0_1_n_n 128 rfl rfl).symm k) = ix2 k j :=
    funext fun a => Fin.ext (by
      match a with
      | ⟨0, _⟩ => exact (rhs_main_v35_0 _ _).trans hk
      | ⟨1, _⟩ => exact rhs_main_v35_1 _ _)
  rw [el, er]

/-- A layer's text over variables, read at (p, q): the operand's entry, plus the sum over the edges whose scatter word
    read signed is p of (the doubly transformed row the gather word names, entry q) times the weight's entry, plus the
    bias's entry. -/
theorem layer_apply (X : (⟨S50000x128, .f32⟩ : BufTy).Contents (Elt Ideal))
    (W1 W2 : (⟨S128x128, .f32⟩ : BufTy).Contents (Elt Ideal))
    (iG iS : (⟨S650000x1, .i32⟩ : BufTy).Contents (Elt Ideal))
    (nrm : (⟨S650000x128, .f32⟩ : BufTy).Contents (Elt Ideal))
    (Z B : (⟨S50000x128, .f32⟩ : BufTy).Contents (Elt Ideal)) (p : Node) (q : Feat) :
    addf (Host.scatterAdd (F := Ideal) scatter_S50000x128_S650000x1_S650000x128_1_0_0_1 Z iS
        (mulf (Host.gather gather_S50000x128_S650000x1_S650000x128_1_0_n_n_0_1_1128
          (Host.dotGeneral (F := Ideal) (φ₁ := .f32) (φ₂ := .f32) dot_S50000x128_S128x128_S50000x128_1_0_0_1_n_n none
            (Host.dotGeneral (F := Ideal) (φ₁ := .f32) (φ₂ := .f32) dot_S50000x128_S128x128_S50000x128_1_0_0_1_n_n none X W1) W2) iG) nrm)) B (ix2 p q)
      = (Z (ix2 p q) + ∑ e ∈ Finset.univ.filter (fun e : Edge => (iS (ix2 e ⟨0, Nat.one_pos⟩)).toInt = (p.val : Int)),
          (∑ m : Feat, (∑ k : Feat, X (ix2 (row32 (iG (ix2 e ⟨0, Nat.one_pos⟩))) k) * W1 (ix2 k m)) * W2 (ix2 m q))
            * nrm (ix2 e q)) + B (ix2 p q) := by
  rw [addf_apply]
  refine congrArg (· + B (ix2 p q)) ?_
  refine (scatterAdd_rows_apply (N := 50000) (E := 650000) (D := 128) scatter_S50000x128_S650000x1_S650000x128_1_0_0_1.wf
    Z iS _ p q).trans ?_
  refine congrArg (Z (ix2 p q) + ·) ?_
  refine Finset.sum_congr rfl fun e _ => ?_
  rw [mulf_apply]
  refine congrArg (· * nrm (ix2 e q)) ?_
  refine (gather_rows_apply (N := 50000) (E := 650000) (D := 128) (by norm_num)
    gather_S50000x128_S650000x1_S650000x128_1_0_n_n_0_1_1128.wf _ iG e q).trans ?_
  show Host.dotGeneral (F := Ideal) (φ₁ := .f32) (φ₂ := .f32) dot_S50000x128_S128x128_S50000x128_1_0_0_1_n_n none _ W2
    (ix2 (row32 (iG (ix2 e ⟨0, Nat.one_pos⟩))) q) = _
  rw [dot_apply]
  refine Finset.sum_congr rfl fun m _ => ?_
  rw [dot_apply]

/-! ## The index arrays and the edge weight, read at an edge -/

section Edges
variable (a1 : (⟨S2x600000, .i32⟩ : BufTy).Contents (Elt Ideal))

/-- The index normalisation at an edge: the normalised source word. -/
theorem v44_apply (e : Edge) : val_main_v44 (F := Ideal) a1 (ix1 e) = norm32 (src a1 e) := by
  rw [val_main_v44_apply, val_main_v41_apply, val_main_v43_apply, val_main_v40_apply, val_main_v42_apply,
    val_main_c_7_apply, val_main_c_8_apply]
  rfl

/-- The same normalisation of the target word. -/
theorem v28_apply (e : Edge) : val_main_v28 (F := Ideal) a1 (ix1 e) = norm32 (dst a1 e) := by
  rw [val_main_v28_apply, val_main_v25_apply, val_main_v27_apply, val_main_v24_apply, val_main_v26_apply,
    val_main_c_5_apply, val_main_c_6_apply]
  rfl

/-- A layer's gather word at edge e. -/
theorem v45_apply (e : Edge) : val_main_v45 (F := Ideal) a1 (ix2 e ⟨0, Nat.one_pos⟩) = norm32 (src a1 e) := by
  rw [val_main_v45_apply,
    show idx_main_v45 (ix2 e ⟨0, Nat.one_pos⟩) = ix1 e from funext fun a => by match a with | ⟨0, _⟩ => rfl]
  exact v44_apply a1 e

/-- A layer's scatter word at edge e: the raw target word. -/
theorem v51_apply (e : Edge) : val_main_v51 (F := Ideal) a1 (ix2 e ⟨0, Nat.one_pos⟩) = dst a1 e := by
  rw [val_main_v51_apply,
    show idx_main_v51 (ix2 e ⟨0, Nat.one_pos⟩) = ix1 e from funext fun a => by match a with | ⟨0, _⟩ => rfl]
  rfl

/-- The entry gather over variables: the operand's entry at the row the start word names. -/
theorem entry_gather (x : (⟨S50000, .f32⟩ : BufTy).Contents (Elt Ideal))
    (idx : (⟨S650000x1, .i32⟩ : BufTy).Contents (Elt Ideal)) (e : Edge) :
    Host.gather gather_S50000_S650000x1_S650000_n_0_n_n_0_1_1 x idx (ix1 e)
      = x (ix1 (row32 (idx (ix2 e ⟨0, Nat.one_pos⟩)))) :=
  gather_entry_apply (by norm_num) _ _ _ e

/-- The two index normalisations of the source word are the same text. -/
theorem v21_eq : val_main_v21 (F := Ideal) a1 = val_main_v44 (F := Ideal) a1 := rfl

/-- The scale gathered at the normalised source word is the scale of the row that word names. -/
theorem v23_apply (e : Edge) : val_main_v23 (F := Ideal) a1 (ix1 e) = dv a1 (gsOf (src a1) e) := by
  unfold val_main_v23
  rw [entry_gather, val_main_v22_apply,
    show idx_main_v22 (ix2 e ⟨0, Nat.one_pos⟩) = ix1 e from funext fun a => by match a with | ⟨0, _⟩ => rfl,
    v21_eq, v44_apply]
  rfl

/-- The scale gathered at the normalised target word. -/
theorem v30_apply (e : Edge) : val_main_v30 (F := Ideal) a1 (ix1 e) = dv a1 (gsOf (dst a1) e) := by
  unfold val_main_v30
  rw [entry_gather, val_main_v29_apply,
    show idx_main_v29 (ix2 e ⟨0, Nat.one_pos⟩) = ix1 e from funext fun a => by match a with | ⟨0, _⟩ => rfl,
    v28_apply]
  rfl

/-- A layer's edge weight, broadcast along the features. -/
theorem v48_apply (e : Edge) (q : Feat) :
    val_main_v48 (F := Ideal) a1 (ix2 e q) = dv a1 (gsOf (src a1) e) * dv a1 (gsOf (dst a1) e) := by
  rw [val_main_v48_apply,
    show idx_main_v48 (ix2 e q) = ix2 e ⟨0, Nat.one_pos⟩ from
      funext fun a => by match a with | ⟨0, _⟩ => rfl | ⟨1, _⟩ => rfl,
    val_main_v47_apply,
    show idx_main_v47 (ix2 e ⟨0, Nat.one_pos⟩) = ix1 e from funext fun a => by match a with | ⟨0, _⟩ => rfl,
    val_main_v31_apply, v23_apply, v30_apply]
  rfl

end Edges

/-! ## The weights, the bias and the zero operand, read at an index -/

/-- The scatter's operand is zero everywhere. -/
theorem v50_apply (p : Node) (q : Feat) : val_main_v50 (F := Ideal) (ix2 p q) = 0 := by
  rw [val_main_v50_apply, val_main_cst_9_apply]
  exact Ideal.ofBits_zero_f32

/-- The first weight of each layer, transposed: entry (k, m) of the operand of the first product is entry (m, k) of
    the layer's slice of the stacked weights. -/
theorem w34_apply (a : (⟨S4x128x128, .f32⟩ : BufTy).Contents (Elt Ideal)) (k m : Feat) :
    val_main_v34 (F := Ideal) a (ix2 k m) = a (ix3 (0 : Fin 4) m k) := by
  rw [val_main_v34_apply, val_main_v33_apply, val_main_v32_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w60_apply (a : (⟨S4x128x128, .f32⟩ : BufTy).Contents (Elt Ideal)) (k m : Feat) :
    val_main_v60 (F := Ideal) a (ix2 k m) = a (ix3 (1 : Fin 4) m k) := by
  rw [val_main_v60_apply, val_main_v59_apply, val_main_v58_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w86_apply (a : (⟨S4x128x128, .f32⟩ : BufTy).Contents (Elt Ideal)) (k m : Feat) :
    val_main_v86 (F := Ideal) a (ix2 k m) = a (ix3 (2 : Fin 4) m k) := by
  rw [val_main_v86_apply, val_main_v85_apply, val_main_v84_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w112_apply (a : (⟨S4x128x128, .f32⟩ : BufTy).Contents (Elt Ideal)) (k m : Feat) :
    val_main_v112 (F := Ideal) a (ix2 k m) = a (ix3 (3 : Fin 4) m k) := by
  rw [val_main_v112_apply, val_main_v111_apply, val_main_v110_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

/-- The second weight of each layer, transposed, in the same way. -/
theorem w38_apply (a : (⟨S4x128x128, .f32⟩ : BufTy).Contents (Elt Ideal)) (k m : Feat) :
    val_main_v38 (F := Ideal) a (ix2 k m) = a (ix3 (0 : Fin 4) m k) := by
  rw [val_main_v38_apply, val_main_v37_apply, val_main_v36_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w64_apply (a : (⟨S4x128x128, .f32⟩ : BufTy).Contents (Elt Ideal)) (k m : Feat) :
    val_main_v64 (F := Ideal) a (ix2 k m) = a (ix3 (1 : Fin 4) m k) := by
  rw [val_main_v64_apply, val_main_v63_apply, val_main_v62_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w90_apply (a : (⟨S4x128x128, .f32⟩ : BufTy).Contents (Elt Ideal)) (k m : Feat) :
    val_main_v90 (F := Ideal) a (ix2 k m) = a (ix3 (2 : Fin 4) m k) := by
  rw [val_main_v90_apply, val_main_v89_apply, val_main_v88_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

theorem w116_apply (a : (⟨S4x128x128, .f32⟩ : BufTy).Contents (Elt Ideal)) (k m : Feat) :
    val_main_v116 (F := Ideal) a (ix2 k m) = a (ix3 (3 : Fin 4) m k) := by
  rw [val_main_v116_apply, val_main_v115_apply, val_main_v114_apply]
  refine congrArg a (funext fun d => Fin.ext ?_)
  have hk := k.isLt
  have hm := m.isLt
  match d with
  | ⟨0, _⟩ => rfl
  | ⟨1, _⟩ => show (m.val * 128 + k.val) / 128 % 128 = m.val; omega
  | ⟨2, _⟩ => show (m.val * 128 + k.val) % 128 = k.val; omega

/-- The bias of each layer, broadcast along the nodes. -/
theorem b56_apply (a : (⟨S4x128, .f32⟩ : BufTy).Contents (Elt Ideal)) (p : Node) (q : Feat) :
    val_main_v56 (F := Ideal) a (ix2 p q) = a (ix2 (0 : Fin 4) q) := by
  rw [val_main_v56_apply, val_main_v55_apply, val_main_v54_apply, val_main_v53_apply]
  refine congrArg a (funext fun d => Fin.ext ?_)
  have hq := q.isLt
  match d with
  | ⟨0, _⟩ => rfl
  | ⟨1, _⟩ => show q.val % 128 = q.val; omega

theorem b82_apply (a : (⟨S4x128, .f32⟩ : BufTy).Contents (Elt Ideal)) (p : Node) (q : Feat) :
    val_main_v82 (F := Ideal) a (ix2 p q) = a (ix2 (1 : Fin 4) q) := by
  rw [val_main_v82_apply, val_main_v81_apply, val_main_v80_apply, val_main_v79_apply]
  refine congrArg a (funext fun d => Fin.ext ?_)
  have hq := q.isLt
  match d with
  | ⟨0, _⟩ => rfl
  | ⟨1, _⟩ => show q.val % 128 = q.val; omega

theorem b108_apply (a : (⟨S4x128, .f32⟩ : BufTy).Contents (Elt Ideal)) (p : Node) (q : Feat) :
    val_main_v108 (F := Ideal) a (ix2 p q) = a (ix2 (2 : Fin 4) q) := by
  rw [val_main_v108_apply, val_main_v107_apply, val_main_v106_apply, val_main_v105_apply]
  refine congrArg a (funext fun d => Fin.ext ?_)
  have hq := q.isLt
  match d with
  | ⟨0, _⟩ => rfl
  | ⟨1, _⟩ => show q.val % 128 = q.val; omega

theorem b134_apply (a : (⟨S4x128, .f32⟩ : BufTy).Contents (Elt Ideal)) (p : Node) (q : Feat) :
    val_main_v134 (F := Ideal) a (ix2 p q) = a (ix2 (3 : Fin 4) q) := by
  rw [val_main_v134_apply, val_main_v133_apply, val_main_v132_apply, val_main_v131_apply]
  refine congrArg a (funext fun d => Fin.ext ?_)
  have hq := q.isLt
  match d with
  | ⟨0, _⟩ => rfl
  | ⟨1, _⟩ => show q.val % 128 = q.val; omega

/-! ## One layer against the specification -/

/-- A layer's text over variables is the textbook layer, given what its operands read at an index: the transposed
    weights, the normalised source word, the raw target word, the edge weight, zero, and the broadcast bias. -/
theorem layer_ref (a1 : (⟨S2x600000, .i32⟩ : BufTy).Contents (Elt Ideal))
    (X : (⟨S50000x128, .f32⟩ : BufTy).Contents (Elt Ideal))
    (W1 W2 : (⟨S128x128, .f32⟩ : BufTy).Contents (Elt Ideal))
    (iG iS : (⟨S650000x1, .i32⟩ : BufTy).Contents (Elt Ideal))
    (nrm : (⟨S650000x128, .f32⟩ : BufTy).Contents (Elt Ideal))
    (Z B : (⟨S50000x128, .f32⟩ : BufTy).Contents (Elt Ideal))
    (LW GW : Feat → Feat → EReal) (b : Feat → EReal)
    (hW1 : ∀ k m : Feat, W1 (ix2 k m) = LW m k) (hW2 : ∀ m j : Feat, W2 (ix2 m j) = GW j m)
    (hG : ∀ e : Edge, iG (ix2 e ⟨0, Nat.one_pos⟩) = norm32 (src a1 e))
    (hS : ∀ e : Edge, iS (ix2 e ⟨0, Nat.one_pos⟩) = dst a1 e)
    (hN : ∀ (e : Edge) (q : Feat), nrm (ix2 e q) = dv a1 (gsOf (src a1) e) * dv a1 (gsOf (dst a1) e))
    (hZ : ∀ (p : Node) (q : Feat), Z (ix2 p q) = 0) (hB : ∀ (p : Node) (q : Feat), B (ix2 p q) = b q) :
    (fun (p : Node) (q : Feat) => addf (Host.scatterAdd (F := Ideal) scatter_S50000x128_S650000x1_S650000x128_1_0_0_1 Z iS
        (mulf (Host.gather gather_S50000x128_S650000x1_S650000x128_1_0_n_n_0_1_1128
          (Host.dotGeneral (F := Ideal) (φ₁ := .f32) (φ₂ := .f32) dot_S50000x128_S128x128_S50000x128_1_0_0_1_n_n none
            (Host.dotGeneral (F := Ideal) (φ₁ := .f32) (φ₂ := .f32) dot_S50000x128_S128x128_S50000x128_1_0_0_1_n_n none X W1) W2) iG) nrm)) B (ix2 p q))
      = refLayer (gsOf (src a1)) (gsOf (dst a1)) (hitOf (dst a1)) (dv a1) LW GW b (fun i k => X (ix2 i k)) := by
  funext p q
  rw [layer_apply, hZ, zero_add, hB]
  unfold refLayer lin
  refine congrArg (· + b q) ?_
  refine Finset.sum_congr ?_ fun e _ => ?_
  · ext e
    rw [Finset.mem_filter, Finset.mem_filter, hS]
    exact Iff.rfl
  · simp only [hG, hN, hW1, hW2]
    rfl

/-! ## The four layers -/

section Net
variable (a0 : (⟨S50000x128, .f32⟩ : BufTy).Contents (Elt Ideal)) (a1 : (⟨S2x600000, .i32⟩ : BufTy).Contents (Elt Ideal))
  (a2 a3 : (⟨S4x128x128, .f32⟩ : BufTy).Contents (Elt Ideal)) (a4 : (⟨S4x128, .f32⟩ : BufTy).Contents (Elt Ideal))

/-- The first layer's output is the textbook layer of the input. -/
theorem net1 : (fun (p : Node) (q : Feat) => val_main_v57 (F := Ideal) a0 a1 a2 a3 a4 (ix2 p q))
    = refLayer (gsOf (src a1)) (gsOf (dst a1)) (hitOf (dst a1)) (dv a1)
        (fun m k => a2 (ix3 (0 : Fin 4) m k)) (fun j m => a3 (ix3 (0 : Fin 4) j m)) (fun j => a4 (ix2 (0 : Fin 4) j))
        (fun i k => a0 (ix2 i k)) :=
  layer_ref a1 a0 (val_main_v34 (F := Ideal) a2) (val_main_v38 (F := Ideal) a3) (val_main_v45 (F := Ideal) a1)
    (val_main_v51 (F := Ideal) a1) (val_main_v48 (F := Ideal) a1) (val_main_v50 (F := Ideal)) (val_main_v56 (F := Ideal) a4)
    _ _ _ (w34_apply a2) (w38_apply a3) (v45_apply a1) (v51_apply a1) (v48_apply a1) v50_apply (b56_apply a4)

/-- The second layer's output is the textbook layer of the first layer's (the later layers recompute the same index
    arrays, edge weight and zero operand as the first, in the same words, so the first layer's readings serve). -/
theorem net2 : (fun (p : Node) (q : Feat) => val_main_v83 (F := Ideal) a0 a1 a2 a3 a4 (ix2 p q))
    = refLayer (gsOf (src a1)) (gsOf (dst a1)) (hitOf (dst a1)) (dv a1)
        (fun m k => a2 (ix3 (1 : Fin 4) m k)) (fun j m => a3 (ix3 (1 : Fin 4) j m)) (fun j => a4 (ix2 (1 : Fin 4) j))
        (fun i k => val_main_v57 (F := Ideal) a0 a1 a2 a3 a4 (ix2 i k)) :=
  layer_ref a1 (val_main_v57 (F := Ideal) a0 a1 a2 a3 a4) (val_main_v60 (F := Ideal) a2) (val_main_v64 (F := Ideal) a3)
    (val_main_v45 (F := Ideal) a1) (val_main_v51 (F := Ideal) a1) (val_main_v48 (F := Ideal) a1) (val_main_v50 (F := Ideal))
    (val_main_v82 (F := Ideal) a4)
    _ _ _ (w60_apply a2) (w64_apply a3) (v45_apply a1) (v51_apply a1) (v48_apply a1) v50_apply (b82_apply a4)

/-- The third layer's output is the textbook layer of the second layer's. -/
theorem net3 : (fun (p : Node) (q : Feat) => val_main_v109 (F := Ideal) a0 a1 a2 a3 a4 (ix2 p q))
    = refLayer (gsOf (src a1)) (gsOf (dst a1)) (hitOf (dst a1)) (dv a1)
        (fun m k => a2 (ix3 (2 : Fin 4) m k)) (fun j m => a3 (ix3 (2 : Fin 4) j m)) (fun j => a4 (ix2 (2 : Fin 4) j))
        (fun i k => val_main_v83 (F := Ideal) a0 a1 a2 a3 a4 (ix2 i k)) :=
  layer_ref a1 (val_main_v83 (F := Ideal) a0 a1 a2 a3 a4) (val_main_v86 (F := Ideal) a2) (val_main_v90 (F := Ideal) a3)
    (val_main_v45 (F := Ideal) a1) (val_main_v51 (F := Ideal) a1) (val_main_v48 (F := Ideal) a1) (val_main_v50 (F := Ideal))
    (val_main_v108 (F := Ideal) a4)
    _ _ _ (w86_apply a2) (w90_apply a3) (v45_apply a1) (v51_apply a1) (v48_apply a1) v50_apply (b108_apply a4)

/-- The fourth layer's output is the textbook layer of the third layer's. -/
theorem net4 : (fun (p : Node) (q : Feat) => val_main_v135 (F := Ideal) a0 a1 a2 a3 a4 (ix2 p q))
    = refLayer (gsOf (src a1)) (gsOf (dst a1)) (hitOf (dst a1)) (dv a1)
        (fun m k => a2 (ix3 (3 : Fin 4) m k)) (fun j m => a3 (ix3 (3 : Fin 4) j m)) (fun j => a4 (ix2 (3 : Fin 4) j))
        (fun i k => val_main_v109 (F := Ideal) a0 a1 a2 a3 a4 (ix2 i k)) :=
  layer_ref a1 (val_main_v109 (F := Ideal) a0 a1 a2 a3 a4) (val_main_v112 (F := Ideal) a2) (val_main_v116 (F := Ideal) a3)
    (val_main_v45 (F := Ideal) a1) (val_main_v51 (F := Ideal) a1) (val_main_v48 (F := Ideal) a1) (val_main_v50 (F := Ideal))
    (val_main_v134 (F := Ideal) a4)
    _ _ _ (w112_apply a2) (w116_apply a3) (v45_apply a1) (v51_apply a1) (v48_apply a1) v50_apply (b134_apply a4)

end Net

/-- The reference program's result at (p, q) is the four textbook layers of its arguments, over the edge data the
    program computes. -/
theorem ref_value (a0 : (⟨S50000x128, .f32⟩ : BufTy).Contents (Elt Ideal)) (a1 : (⟨S2x600000, .i32⟩ : BufTy).Contents (Elt Ideal))
    (a2 a3 : (⟨S4x128x128, .f32⟩ : BufTy).Contents (Elt Ideal)) (a4 : (⟨S4x128, .f32⟩ : BufTy).Contents (Elt Ideal))
    (p : Node) (q : Feat) :
    val_main_v135 (F := Ideal) a0 a1 a2 a3 a4 (ix2 p q)
      = refNet (gsOf (src a1)) (gsOf (dst a1)) (hitOf (dst a1)) (dv a1)
          (fun l m k => a2 (ix3 l m k)) (fun l j m => a3 (ix3 l j m)) (fun l j => a4 (ix2 l j)) (fun i k => a0 (ix2 i k)) p q := by
  unfold refNet
  rw [← net1 a0 a1 a2 a3 a4, ← net2 a0 a1 a2 a3 a4, ← net3 a0 a1 a2 a3 a4]
  exact congrFun (congrFun (net4 a0 a1 a2 a3 a4) p) q

/-! ## The node scale is a real number -/

/-- The literal 1.0 denotes the real number 1. -/
theorem ofBits_one_f32 : Ideal.ofBits .f32 0x3F800000#32 = 1 := by
  simp [Ideal.ofBits, Ideal.ieee, -EReal.coe_mul]; norm_num

/-- The reciprocal square root of an extended real that is at least 1 is a real number (0 at +∞). -/
theorem rsqrt_real_of_one_le (x : EReal) (h : 1 ≤ x) : ∃ r : ℝ, Ideal.rsqrt x = (r : EReal) := by
  induction x using EReal.rec with
  | bot => exact absurd h (not_le.mpr (EReal.bot_lt_coe 1))
  | top => exact ⟨0, by simp⟩
  | coe r =>
    have hr : (1 : ℝ) ≤ r := by exact_mod_cast h
    refine ⟨(Real.sqrt r)⁻¹, ?_⟩
    rw [Ideal.rsqrt_coe, if_neg (by linarith), if_neg (by intro h0; linarith)]

/-- Every node's scale is a real number: where the degree is positive it is the reciprocal square root of the larger
    of the degree and 1, elsewhere it is the literal 0. -/
theorem dv_fin (a1 : (⟨S2x600000, .i32⟩ : BufTy).Contents (Elt Ideal)) : Fin1 (dv a1) := by
  intro i
  show ∃ r : ℝ, val_main_v16 (F := Ideal) a1 (ix1 i) = (r : EReal)
  rw [val_main_v16_apply, val_main_v15_apply, val_main_v14_apply, val_main_v13_apply, val_main_cst_2_apply,
    val_main_call0_v1_apply, val_main_call0_v0_apply, val_main_cst_3_apply]
  generalize val_main_v12 (F := Ideal) a1 (ix1 i) = c
  generalize val_main_v10 (F := Ideal) a1 (ix1 i) = d
  rw [Ideal.hostUnary_rsqrt_def, Ideal.maximumf_def, Ideal.ofBits_def, Ideal.ofBits_def, ofBits_one_f32,
    Ideal.ofBits_zero_f32]
  unfold Scalar.select
  split
  · exact rsqrt_real_of_one_le _ (le_max_right _ _)
  · exact ⟨0, by simp⟩

end Cert.ReferenceIdeal.RefValue

end
-- ==== Proof.Leaves.lean ====
/-
  The two programs compute the edge lists and the node scale by the same host operations.

  Both @mains begin alike: the source and target index arrays are the rows of edge_index, each followed by the self-loop
  indices 0 … N-1; the degree is the scatter-add of ones at the targets; the scale is 1/sqrt(max(deg, 1)) where deg > 0 and
  0 elsewhere. Here the kernel program's three arrays, as its first host stretches leave them, are shown to be the
  reference program's, as functions of the same edge_index argument.
-/
import proofs.«121010_j69320772158261_2_alg».proof.Proof.Gen.KernelIdeal.Frame
import proofs.«121010_j69320772158261_2_alg».proof.Proof.RefReadP
import Idealize.ShloMosaic.Lib.StableHlo.Run

set_option maxRecDepth 16384

noncomputable section
namespace Cert.Leaves
open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A stretch of host operations leaves a buffer it does not write as it found it. -/
macro "not_written" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem src_leaf : (W3 (F := Ideal) m ρ c (Proc.devRef .tc main_v3) : S650000.Idx → BitVec 32)
    = Cert.ReferenceIdeal.ReadP.val_main_v3 (F := Ideal) (m ((c.tc : Thread nD τ).loc main_arg1)) := by
  have h : W3 (F := Ideal) m ρ c (Proc.devRef .tc main_v3) = W1 (F := Ideal) m ρ c (Proc.devRef .tc main_v3) :=
    calc W3 (F := Ideal) m ρ c (Proc.devRef .tc main_v3)
      _ = W2 (F := Ideal) m ρ c (Proc.devRef .tc main_v3) := by not_written hostOps0_2
      _ = W1 (F := Ideal) m ρ c (Proc.devRef .tc main_v3) := by not_written hostOps0_1
  rw [h]
  show StableHlo.after hostOps0 (W0 (F := Ideal) m ρ c) (Proc.devRef .tc main_v3) = _
  after_results
  rfl

theorem dst_leaf : (W3 (F := Ideal) m ρ c (Proc.devRef .tc main_v6) : S650000.Idx → BitVec 32)
    = Cert.ReferenceIdeal.ReadP.val_main_v6 (F := Ideal) (m ((c.tc : Thread nD τ).loc main_arg1)) := by
  have h : W3 (F := Ideal) m ρ c (Proc.devRef .tc main_v6) = W1 (F := Ideal) m ρ c (Proc.devRef .tc main_v6) :=
    calc W3 (F := Ideal) m ρ c (Proc.devRef .tc main_v6)
      _ = W2 (F := Ideal) m ρ c (Proc.devRef .tc main_v6) := by not_written hostOps0_2
      _ = W1 (F := Ideal) m ρ c (Proc.devRef .tc main_v6) := by not_written hostOps0_1
  rw [h]
  show StableHlo.after hostOps0 (W0 (F := Ideal) m ρ c) (Proc.devRef .tc main_v6) = _
  after_results
  rfl

theorem cmp_leaf : (W1 (F := Ideal) m ρ c (Proc.devRef .tc main_v12) : S50000.Idx → BitVec 1)
    = Cert.ReferenceIdeal.ReadP.val_main_v12 (F := Ideal) (m ((c.tc : Thread nD τ).loc main_arg1)) := by
  show StableHlo.after hostOps0 (W0 (F := Ideal) m ρ c) (Proc.devRef .tc main_v12) = _
  after_results
  rfl

theorem rsqrt_leaf : (W1 (F := Ideal) m ρ c (Proc.devRef .tc main_v15) : S50000.Idx → EReal)
    = Cert.ReferenceIdeal.ReadP.val_main_v15 (F := Ideal) (m ((c.tc : Thread nD τ).loc main_arg1)) := by
  show StableHlo.after hostOps0 (W0 (F := Ideal) m ρ c) (Proc.devRef .tc main_v15) = _
  after_results
  rfl

theorem zero_leaf : (W1 (F := Ideal) m ρ c (Proc.devRef .tc main_cst_3) : S_.Idx → EReal)
    = Cert.ReferenceIdeal.ReadP.val_main_cst_3 (F := Ideal) := by
  show StableHlo.after hostOps0 (W0 (F := Ideal) m ρ c) (Proc.devRef .tc main_cst_3) = _
  after_results
  rfl

theorem dv_leaf : (W3 (F := Ideal) m ρ c (Proc.devRef .tc main_v16) : S50000.Idx → EReal)
    = Cert.ReferenceIdeal.ReadP.val_main_v16 (F := Ideal) (m ((c.tc : Thread nD τ).loc main_arg1)) := by
  have h : W3 (F := Ideal) m ρ c (Proc.devRef .tc main_v16) = W2 (F := Ideal) m ρ c (Proc.devRef .tc main_v16) := by
    not_written hostOps0_2
  rw [h]
  show StableHlo.after hostOps0_1 (W1 (F := Ideal) m ρ c) (Proc.devRef .tc main_v16) = _
  have e12 := cmp_leaf m ρ c
  have e15 := rsqrt_leaf m ρ c
  have e0 := zero_leaf m ρ c
  generalize W1 (F := Ideal) m ρ c = Wv at e12 e15 e0 ⊢
  after_results_simp
  rw [e12, e15, e0]
  unfold Cert.ReferenceIdeal.ReadP.val_main_v16 Cert.ReferenceIdeal.ReadP.val_main_call0_v1 Cert.ReferenceIdeal.ReadP.val_main_call0_v0
  simp only [StableHlo.TRef.toBuf, StableHlo.TRef.ofBuf, cast_eq, id]

end Cert.Leaves
end
-- ==== Proof.Finite.lean ====
/-
  From the precondition to "every float input entry is a real number".

  The precondition is the conjunction, over the four float inputs, of all(|x| < +inf).  Each "all" is a reduction by
  "and" from the constant 1 into a single result, so a result of 1 makes every compared entry 1; the comparison at
  an entry says max x (-x) < ⊤ in the extended reals, which excludes x = ⊤ and x = ⊥ (as -⊥ = ⊤): x is a real.
-/
import proofs.«121010_j69320772158261_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Gcn

open Idealize.ShloMosaic Cert.Pre_finite_inputs

/-- The scalar shape has one index. -/
private instance subsingleton_scalarIdx : Subsingleton S_.Idx := ⟨fun _ _ => funext fun d => d.elim0⟩

/-- The f32 word 0x7F800000 (exponent all ones, fraction zero, sign clear) denotes +∞. -/
private theorem ofBits_inf : Ideal.ofBits .f32 0x7F800000#32 = (⊤ : EReal) := by
  simp [Ideal.ofBits, Ideal.ieee]

/-- An extended real whose absolute value compares below +∞ is a real number. -/
private theorem real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  rw [Ideal.hostAbsf_def, Ideal.absf_def, Ideal.ofBits_def, ofBits_inf, Ideal.cmpf_def] at h
  have hlt : max x (-x) < (⊤ : EReal) := by
    by_contra hn
    simp [Ideal.cmp, hn] at h
  induction x using EReal.rec with
  | bot => simp at hlt
  | coe r => exact ⟨r, rfl⟩
  | top => simp at hlt

/-- Under the precondition every entry of the four float inputs is a real number. -/
theorem finite_of_pre [Cert.Pre_finite_inputs.Facts]
    (a0 : FVec Ideal S50000x128 .f32) (a1 : IVec S2x600000 32) (a2 a3 : FVec Ideal S4x128x128 .f32)
    (a4 : FVec Ideal S4x128 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧
      (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨e0, e2⟩, e3⟩, e4⟩ := h0
  refine ⟨fun i => ?_, fun i => ?_, fun i => ?_, fun i => ?_⟩
  · exact real_of_abs_lt_inf (a0 i) (Host.reduce_andi_all _ _ _ _ _ e0 i)
  · exact real_of_abs_lt_inf (a2 i) (Host.reduce_andi_all _ _ _ _ _ e2 i)
  · exact real_of_abs_lt_inf (a3 i) (Host.reduce_andi_all _ _ _ _ _ e3 i)
  · exact real_of_abs_lt_inf (a4 i) (Host.reduce_andi_all _ _ _ _ _ e4 i)

end Cert.Gcn

end
-- ==== Proof.Glue.lean ====
/-
  The two idealized programs end with equal results.

  The kernel program's result buffer ends at the last boundary's contents, which (the kernel's value) is the four factored
  layers of the arguments; the reference program's result is (the reference's value) the four textbook layers of the
  same arguments, over the same edge lists and node scale (the two programs compute those by the same host operations).
  The inputs are finite by the precondition, the scale is finite, and an edge landing at node i gathers node i through
  its target index; so the two four-layer functions agree (the layer law of the specification).
-/
import proofs.«121010_j69320772158261_2_alg».proof.Defs
import proofs.«121010_j69320772158261_2_alg».proof.Proof.Gen.Pre_finite_inputs
import proofs.«121010_j69320772158261_2_alg».proof.Proof.Gen.ReferenceIdeal
import proofs.«121010_j69320772158261_2_alg».proof.Proof.KerRun
import proofs.«121010_j69320772158261_2_alg».proof.Proof.RefValue
import proofs.«121010_j69320772158261_2_alg».proof.Proof.Leaves
import proofs.«121010_j69320772158261_2_alg».proof.Proof.Finite

set_option maxRecDepth 16384

noncomputable section

namespace Cert.Glue

open Idealize.ShloMosaic Idealize.ShloMosaic.TcCoe Idealize.SL.Sem Idealize.ShloMosaic.ValueIdx
open Cert.Gcn

/-- What the kernel's value lemma says, as a proposition: the last boundary's contents of the result buffer, read at
    (p, q), are the four factored layers over the kernel program's own edge lists and scale. -/
def KerValueStmt : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (a0 : Cert.KernelIdeal.S50000x128.Idx → EReal) (a2 a3 : Cert.KernelIdeal.S4x128x128.Idx → EReal) (a4 : Cert.KernelIdeal.S4x128.Idx → EReal)
    (_ : (m ((c.tc : Thread Cert.KernelIdeal.nD Cert.KernelIdeal.τ).loc Cert.KernelIdeal.main_arg0) : Cert.KernelIdeal.S50000x128.Idx → EReal) = a0)
    (_ : (m ((c.tc : Thread Cert.KernelIdeal.nD Cert.KernelIdeal.τ).loc Cert.KernelIdeal.main_arg2) : Cert.KernelIdeal.S4x128x128.Idx → EReal) = a2)
    (_ : (m ((c.tc : Thread Cert.KernelIdeal.nD Cert.KernelIdeal.τ).loc Cert.KernelIdeal.main_arg3) : Cert.KernelIdeal.S4x128x128.Idx → EReal) = a3)
    (_ : (m ((c.tc : Thread Cert.KernelIdeal.nD Cert.KernelIdeal.τ).loc Cert.KernelIdeal.main_arg4) : Cert.KernelIdeal.S4x128.Idx → EReal) = a4)
    (O : Cert.KernelIdeal.S50000x128.Idx → EReal)
    (_ : (Cert.KernelIdeal.Gen.W12 (F := Ideal) m ρ c (Proc.devRef .tc Cert.KernelIdeal.main_v88) : Cert.KernelIdeal.S50000x128.Idx → EReal) = O)
    (p : Node) (q : Feat),
    O (ix2 p q) = kerNet
        (gsOf fun e => (Cert.KernelIdeal.Gen.W3 (F := Ideal) m ρ c (Proc.devRef .tc Cert.KernelIdeal.main_v3) : Cert.KernelIdeal.S650000.Idx → BitVec 32) (ix1 e))
        (hitOf fun e => (Cert.KernelIdeal.Gen.W3 (F := Ideal) m ρ c (Proc.devRef .tc Cert.KernelIdeal.main_v6) : Cert.KernelIdeal.S650000.Idx → BitVec 32) (ix1 e))
        (fun i => (Cert.KernelIdeal.Gen.W3 (F := Ideal) m ρ c (Proc.devRef .tc Cert.KernelIdeal.main_v16) : Cert.KernelIdeal.S50000.Idx → EReal) (ix1 i))
        (fun l m' k => a2 (ix3 l m' k)) (fun l j m' => a3 (ix3 l j m')) (fun l j => a4 (ix2 l j)) (fun i k => a0 (ix2 i k)) p q

theorem algebraic_of (kv : KerValueStmt) : Cert.algebraic_KernelIdeal_ReferenceIdeal := by
  intro m ρ m' ρ' hpre hagree
  refine ⟨fun c => Cert.KernelIdeal.Gen.W12 (F := Ideal) m ρ c (Proc.devRef .tc Cert.KernelIdeal.main_v88),
    Cert.KernelIdeal.Run.run_named m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4⟩ := hagree c
  obtain ⟨f0, f2, f3, f4⟩ := Cert.Gcn.finite_of_pre _ _ _ _ _ (hpre c)
  rw [Cert.ReferenceIdeal.ReadP.val_main_v135_eq, e0, e1, e2, e3, e4]
  funext y
  obtain ⟨p, q, rfl⟩ : ∃ (p : Node) (q : Feat), y = ix2 p q := ⟨y 0, y 1, eq_ix2 y⟩
  refine (Cert.ReferenceIdeal.RefValue.ref_value _ _ _ _ _ p q).trans ?_
  refine Eq.trans ?_ (kv m ρ c _ _ _ _ rfl rfl rfl rfl _ rfl p q).symm
  have hs : (fun e : Edge => (Cert.KernelIdeal.Gen.W3 (F := Ideal) m ρ c (Proc.devRef .tc Cert.KernelIdeal.main_v3) : Cert.KernelIdeal.S650000.Idx → BitVec 32) (ix1 e))
      = Cert.ReferenceIdeal.RefValue.src (m ((c.tc : Thread Cert.KernelIdeal.nD Cert.KernelIdeal.τ).loc Cert.KernelIdeal.main_arg1)) := by
    funext e; rw [Cert.Leaves.src_leaf]; rfl
  have ht : (fun e : Edge => (Cert.KernelIdeal.Gen.W3 (F := Ideal) m ρ c (Proc.devRef .tc Cert.KernelIdeal.main_v6) : Cert.KernelIdeal.S650000.Idx → BitVec 32) (ix1 e))
      = Cert.ReferenceIdeal.RefValue.dst (m ((c.tc : Thread Cert.KernelIdeal.nD Cert.KernelIdeal.τ).loc Cert.KernelIdeal.main_arg1)) := by
    funext e; rw [Cert.Leaves.dst_leaf]; rfl
  have hv : (fun i : Node => (Cert.KernelIdeal.Gen.W3 (F := Ideal) m ρ c (Proc.devRef .tc Cert.KernelIdeal.main_v16) : Cert.KernelIdeal.S50000.Idx → EReal) (ix1 i))
      = Cert.ReferenceIdeal.RefValue.dv (m ((c.tc : Thread Cert.KernelIdeal.nD Cert.KernelIdeal.τ).loc Cert.KernelIdeal.main_arg1)) := by
    funext i; rw [Cert.Leaves.dv_leaf]; rfl
  rw [hs, ht, hv]
  refine congrFun (congrFun (net_eq _ _ _ _ _ _ _ _ (fun e i h => gsOf_of_hit _ e i h) (Cert.ReferenceIdeal.RefValue.dv_fin _)
    (fun l a b => f2 (ix3 l a b)) (fun l a b => f3 (ix3 l a b)) (fun l a => f4 (ix2 l a)) (fun a b => f0 (ix2 a b))).symm p) q

end Cert.Glue

end
-- ==== Proof.RegionValues.lean ====
/-
  What each kernel region leaves in its output array, as ONE function of the arrays the region finds on entry.

  Every region runs over 10 blocks of 5000 rows; block t of the output is the body's result on block t of the row-blocked
  inputs (the weight and the bias are read whole at every point), and the blocks tile the array, so the output array is
  the body's arithmetic read row by row:
    first    : out (p, q) = (∑ k, x (p, k) · w (k, q)) · d (p, 0)
    middle   : out (p, q) = (∑ k, (a (p, k) · d (p, 0) + b (0, k)) · w (k, q)) · d (p, 0)
    last     : out (p, q) = a (p, q) · d (p, 0) + b (0, q)
  (a change of float format is the identity on extended reals; the matrix unit's product into a zero accumulator is the plain sum).
-/
import proofs.«121010_j69320772158261_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Shared: zero offsets, and a column broadcast over the lanes -/

/-- The body's one store and its loads are at offset (0, 0). -/
theorem off_zero : (![0, 0] : Fin 2 → Nat) = fun _ => 0 := funext fun a => by fin_cases a <;> rfl

/-- An `[a, 1]` column broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product -/

/-- The block product into the zero accumulator, at a coordinate: the sum over the contracted coordinate of the
    products of the two blocks' entries. -/
theorem matmul_zero_apply {φ₁ φ₂ : FTy} (A : FVec Ideal S5000x128 φ₁) (B : FVec Ideal S128x128 φ₂) (r : Fin 5000) (q : Fin 128) :
    matmul dot_S5000x128_S128x128_S5000x128_1_0_0_1_n_n none A B (constant (F := Ideal) S5000x128 .f32 0x00000000#32) (ix2 r q)
      = ∑ k : Fin 128, A (ix2 r k) * B (ix2 k q) := by
  show FloatOps.matmul _ none A B _ (ix2 r q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 r q)
      ((contrEquiv1 dot_S5000x128_S128x128_S5000x128_1_0_0_1_n_n 128 rfl rfl).symm k) = ix2 r k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 r q)
      ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [hl, hr]

/-! ## The first region -/

/-- The first body at a coordinate of its block: the row of x through the weight, times the row's scale. -/
theorem first_pay_apply (x0 : Vec Ideal S5000x128 .f32) (x1 : Vec Ideal S128x128 .f32) (x2 : Vec Ideal S5000x1 .f32) (r : Fin 5000) (q : Fin 128) :
    k0_pay1 x0 x1 x2 (ix2 r q) = (∑ k : Fin 128, x0 (ix2 r k) * x1 (ix2 k q)) * x2 (ix2 r (0 : Fin 1)) := by
  unfold k0_pay1
  simp only [shapeCast_self]
  rw [truncf_apply, mulf_apply, broadcastTo_a1_ab_apply, matmul_zero_apply]
  rfl

/-- What the first region's output array ends holding, as one function of the arrays it finds. -/
abbrev firstG (X : S50000x128.Idx → EReal) (Wt : S128x128.Idx → EReal) (d : S50000x1.Idx → EReal) : S50000x128.Idx → EReal :=
  fun i => (∑ k : Fin 128, X (ix2 (i 0) k) * Wt (ix2 k (i 1))) * d (ix2 (i 0) (0 : Fin 1))

/-- The printed index maps over the grid: the row-blocked windows move with the point, the weight is read whole. -/
theorem first_idx : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `firstG` of the arrays the region finds. -/
theorem first_flushed (c : Dev nD) (t : Fin cfg0.N) :
    (dat0 (F := Ideal) V c).flushed 3 t
      = ((cfg0.win 3).blk t).view.read (Elt Ideal) (firstG (V c main_arg0) (V c main_v21) (V c main_v17)) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x128) off_zero, View.ld_unit_zero (S := S5000x1) off_zero]
  obtain ⟨e30, e31, e00, e01, e10, e11, e20, e21⟩ := first_idx t
  funext j
  obtain ⟨r, q, rfl⟩ : ∃ (r : Fin 5000) (q : Fin 128), j = ix2 r q := ⟨j 0, j 1, eq_ix2 j⟩
  refine (first_pay_apply (iblk0 V c 0 t) (iblk0 V c 1 t) (iblk0 V c 2 t) r q).trans ?_
  have h0 : ∀ k : Fin 128, ((cfg0.win 0).blk t).view.emb (ix2 r k) = ix2 ((((cfg0.win 3).blk t).view.emb (ix2 r q)) 0) k := by
    intro k; funext a; apply Fin.ext
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  have h1 : ∀ k : Fin 128, ((cfg0.win 1).blk t).view.emb (ix2 k q) = ix2 k ((((cfg0.win 3).blk t).view.emb (ix2 r q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 r (0 : Fin 1)) = ix2 ((((cfg0.win 3).blk t).view.emb (ix2 r q)) 0) (0 : Fin 1) := by
    funext a; apply Fin.ext
    match a with
    | ⟨0, _⟩ => show win0_2.index t (0 : Fin 2) * 5000 + 1 * r.val = win0_3.index t (0 : Fin 2) * 5000 + 1 * r.val; omega
    | ⟨1, _⟩ => show win0_2.index t (1 : Fin 2) * 1 + 1 * 0 = 0; omega
  have key : ∀ (X : S50000x128.Idx → EReal) (Wt : S128x128.Idx → EReal) (d : S50000x1.Idx → EReal),
      (∑ k : Fin 128, X (((cfg0.win 0).blk t).view.emb (ix2 r k)) * Wt (((cfg0.win 1).blk t).view.emb (ix2 k q)))
        * d (((cfg0.win 2).blk t).view.emb (ix2 r (0 : Fin 1)))
      = firstG X Wt d (((cfg0.win 3).blk t).view.emb (ix2 r q)) := by
    intro X Wt d
    rw [h2]
    refine congrArg (· * _) (Finset.sum_congr rfl fun k _ => ?_)
    rw [h0 k, h1 k]
    rfl
  exact key (V c main_arg0) (V c main_v21) (V c main_v17)

/-- An index of the output array is in point `t`'s block iff each coordinate is in the block's range on its axis. -/
theorem first_mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v22).slice (win0_3.rect t)).set ↔ _
  rw [View.set_slice_whole, Rect.mem_set_unit]
  exact Iff.rfl

/-- The ten row blocks tile the output array: row `p` is in the block of point `p / 5000`. -/
theorem first_cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e30, e31, -⟩ := first_idx t
  have et : t.val = (i 0).val / 5000 := rfl
  refine ⟨t, flush0_3 t, ?_⟩
  rw [first_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The first region's output array after the run. -/
theorem first_final (c : Dev nD) :
    (dat0 (F := Ideal) V c).arrAt 3 cfg0.N = firstG (V c main_arg0) (V c main_v21) (V c main_v17) :=
  (dat0 (F := Ideal) V c).arrAt_eq_of_cover 3 (firstG (V c main_arg0) (V c main_v21) (V c main_v17)) (fun t _ => first_flushed V c t) first_cover

/-- The first region: rows of x through the folded weight, each row scaled by its node's scale. -/
theorem first_value (c : Dev nD) (X : S50000x128.Idx → EReal) (Wt : S128x128.Idx → EReal) (d : S50000x1.Idx → EReal)
    (hX : (V c main_arg0 : S50000x128.Idx → EReal) = X) (hW : (V c main_v21 : S128x128.Idx → EReal) = Wt)
    (hd : (V c main_v17 : S50000x1.Idx → EReal) = d)
    (O : S50000x128.Idx → EReal) (hO : ((dat0 (F := Ideal) V c).arrAt 3 cfg0.N : S50000x128.Idx → EReal) = O)
    (p : Fin 50000) (q : Fin 128) :
    O (ix2 p q) = (∑ k : Fin 128, X (ix2 p k) * Wt (ix2 k q)) * d (ix2 p (0 : Fin 1)) := by
  rw [← hO, first_final V c, hX, hW, hd]

/-! ## The middle regions -/

/-- What a middle region's output array ends holding, as one function of the arrays it finds. -/
abbrev midG (A : S50000x128.Idx → EReal) (Wt : S128x128.Idx → EReal) (d : S50000x1.Idx → EReal) (b : S1x128.Idx → EReal) : S50000x128.Idx → EReal :=
  fun i => (∑ k : Fin 128, (A (ix2 (i 0) k) * d (ix2 (i 0) (0 : Fin 1)) + b (ix2 (0 : Fin 1) k)) * Wt (ix2 k (i 1))) * d (ix2 (i 0) (0 : Fin 1))

/-! ## The first middle region -/

/-- The middle body at a coordinate of its block: the block's row scaled and biased, through the weight, times the row's scale. -/
theorem mid1_pay_apply (x0 : Vec Ideal S5000x128 .f32) (x2 : Vec Ideal S5000x1 .f32) (x6 : Vec Ideal S1x128 .f32)
    (x11 : Vec Ideal S128x128 .f32) (x15 : Vec Ideal S5000x1 .f32) (r : Fin 5000) (q : Fin 128) :
    k1_pay1 x0 x2 x6 x11 x15 (ix2 r q)
      = (∑ k : Fin 128, (x0 (ix2 r k) * x2 (ix2 r (0 : Fin 1)) + x6 (ix2 (0 : Fin 1) k)) * x11 (ix2 k q)) * x15 (ix2 r (0 : Fin 1)) := by
  unfold k1_pay1
  simp only [shapeCast_self]
  rw [truncf_apply, mulf_apply, broadcastTo_a1_ab_apply, matmul_zero_apply]
  refine congrArg (· * _) (Finset.sum_congr rfl fun k _ => ?_)
  rw [truncf_apply, truncf_apply, addf_apply, mulf_apply, broadcastTo_a1_ab_apply, broadcastTo_1b_ab_apply]

/-- The printed index maps over the grid: the row-blocked windows move with the point, the weight and the bias are read whole. -/
theorem mid1_idx : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Where point `t`'s input blocks sit in their arrays, against where its output block sits: the edge sum's and the
    scale's rows are the output's rows, the weight's and the bias's blocks are their whole arrays. -/
theorem mid1_emb (t : Fin cfg1.N) (r : Fin 5000) (q : Fin 128) :
    (∀ k : Fin 128, ((cfg1.win 0).blk t).view.emb (ix2 r k) = ix2 ((((cfg1.win 4).blk t).view.emb (ix2 r q)) 0) k)
    ∧ (∀ k : Fin 128, ((cfg1.win 1).blk t).view.emb (ix2 k q) = ix2 k ((((cfg1.win 4).blk t).view.emb (ix2 r q)) 1))
    ∧ ((cfg1.win 2).blk t).view.emb (ix2 r (0 : Fin 1)) = ix2 ((((cfg1.win 4).blk t).view.emb (ix2 r q)) 0) (0 : Fin 1)
    ∧ (∀ k : Fin 128, ((cfg1.win 3).blk t).view.emb (ix2 (0 : Fin 1) k) = ix2 (0 : Fin 1) k) := by
  obtain ⟨e40, e41, e00, e01, e10, e11, e20, e21, e30, e31⟩ := mid1_idx t
  refine ⟨fun k => ?_, fun k => ?_, ?_, fun k => ?_⟩
  · funext a; apply Fin.ext
    match a with
    | ⟨0, _⟩ => show win1_0.index t (0 : Fin 2) * 5000 + 1 * r.val = win1_4.index t (0 : Fin 2) * 5000 + 1 * r.val; omega
    | ⟨1, _⟩ => show win1_0.index t (1 : Fin 2) * 128 + 1 * k.val = k.val; omega
  · funext a; apply Fin.ext
    match a with
    | ⟨0, _⟩ => show win1_1.index t (0 : Fin 2) * 128 + 1 * k.val = k.val; omega
    | ⟨1, _⟩ => show win1_1.index t (1 : Fin 2) * 128 + 1 * q.val = win1_4.index t (1 : Fin 2) * 128 + 1 * q.val; omega
  · funext a; apply Fin.ext
    match a with
    | ⟨0, _⟩ => show win1_2.index t (0 : Fin 2) * 5000 + 1 * r.val = win1_4.index t (0 : Fin 2) * 5000 + 1 * r.val; omega
    | ⟨1, _⟩ => show win1_2.index t (1 : Fin 2) * 1 + 1 * 0 = 0; omega
  · funext a; apply Fin.ext
    match a with
    | ⟨0, _⟩ => show win1_3.index t (0 : Fin 2) * 1 + 1 * 0 = 0; omega
    | ⟨1, _⟩ => show win1_3.index t (1 : Fin 2) * 128 + 1 * k.val = k.val; omega

/-- So the body's arithmetic on point `t`'s blocks of any four arrays is `midG` of the arrays at the output block's place. -/
theorem mid1_block (t : Fin cfg1.N) (r : Fin 5000) (q : Fin 128)
    (A : S50000x128.Idx → EReal) (Wt : S128x128.Idx → EReal) (d : S50000x1.Idx → EReal) (b : S1x128.Idx → EReal) :
    (∑ k : Fin 128, (A (((cfg1.win 0).blk t).view.emb (ix2 r k)) * d (((cfg1.win 2).blk t).view.emb (ix2 r (0 : Fin 1)))
          + b (((cfg1.win 3).blk t).view.emb (ix2 (0 : Fin 1) k))) * Wt (((cfg1.win 1).blk t).view.emb (ix2 k q)))
      * d (((cfg1.win 2).blk t).view.emb (ix2 r (0 : Fin 1)))
    = midG A Wt d b (((cfg1.win 4).blk t).view.emb (ix2 r q)) := by
  obtain ⟨h0, h1, h2, h3⟩ := mid1_emb t r q
  rw [h2]
  refine congrArg (· * _) (Finset.sum_congr rfl fun k _ => ?_)
  rw [h0 k, h1 k, h3 k]
  rfl

/-- What point `t` writes back is block `t` of `midG` of the arrays the region finds. -/
theorem mid1_flushed (c : Dev nD) (t : Fin cfg1.N) :
    (dat1 (F := Ideal) V c).flushed 4 t
      = ((cfg1.win 4).blk t).view.read (Elt Ideal) (midG (V c main_v33) (V c main_v35) (V c main_v17) (V c main_v38)) := by
  show (cfg1.win 4).cut (grid1.coords t) ((dat1 V c).after 4 t) = _
  rw [after1_4]
  unfold out1_4
  rw [View.canon_unit_zero off_zero]
  simp only [View.ld_unit_zero (S := S5000x128) off_zero, View.ld_unit_zero (S := S128x128) off_zero, View.ld_unit_zero (S := S5000x1) off_zero, View.ld_unit_zero (S := S1x128) off_zero]
  funext j
  obtain ⟨r, q, rfl⟩ : ∃ (r : Fin 5000) (q : Fin 128), j = ix2 r q := ⟨j 0, j 1, eq_ix2 j⟩
  refine (mid1_pay_apply (iblk1 V c 0 t) (iblk1 V c 2 t) (iblk1 V c 3 t) (iblk1 V c 1 t) (iblk1 V c 2 t) r q).trans ?_
  exact mid1_block t r q (V c main_v33) (V c main_v35) (V c main_v17) (V c main_v38)

/-- An index of the output array is in point `t`'s block iff each coordinate is in the block's range on its axis. -/
theorem mid1_mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v39).slice (win1_4.rect t)).set ↔ _
  rw [View.set_slice_whole, Rect.mem_set_unit]
  exact Iff.rfl

/-- The ten row blocks tile the output array: row `p` is in the block of point `p / 5000`. -/
theorem mid1_cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e40, e41, -⟩ := mid1_idx t
  have et : t.val = (i 0).val / 5000 := rfl
  refine ⟨t, flush1_4 t, ?_⟩
  rw [mid1_mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The region's output array after the run. -/
theorem mid1_final (c : Dev nD) :
    (dat1 (F := Ideal) V c).arrAt 4 cfg1.N = midG (V c main_v33) (V c main_v35) (V c main_v17) (V c main_v38) :=
  (dat1 (F := Ideal) V c).arrAt_eq_of_cover 4 (midG (V c main_v33) (V c main_v35) (V c main_v17) (V c main_v38)) (fun t _ => mid1_flushed V c t) mid1_cover

/-- A middle region: the edge sum scaled and biased, through the folded weight, scaled again. -/
theorem mid1_value (c : Dev nD) (A : S50000x128.Idx → EReal) (Wt : S128x128.Idx → EReal) (d : S50000x1.Idx → EReal) (b : S1x128.Idx → EReal)
    (hA : (V c main_v33 : S50000x128.Idx → EReal) = A) (hW : (V c main_v35 : S128x128.Idx → EReal) = Wt)
    (hd : (V c main_v17 : S50000x1.Idx → EReal) = d) (hb : (V c main_v38 : S1x128.Idx → EReal) = b)
    (O : S50000x128.Idx → EReal) (hO : ((dat1 (F := Ideal) V c).arrAt 4 cfg1.N : S50000x128.Idx → EReal) = O)
    (p : Fin 50000) (q : Fin 128) :
    O (ix2 p q) = (∑ k : Fin 128, (A (ix2 p k) * d (ix2 p (0 : Fin 1)) + b (ix2 (0 : Fin 1) k)) * Wt (ix2 k q)) * d (ix2 p (0 : Fin 1)) := by
  rw [← hO, mid1_final V c, hA, hW, hd, hb]

/-! ## The second middle region -/

/-- The middle body at a coordinate of its block: the block's row scaled and biased, through the weight, times the row's scale. -/
theorem mid2_pay_apply (x0 : Vec Ideal S5000x128 .f32) (x2 : Vec Ideal S5000x1 .f32) (x6 : Vec Ideal S1x128 .f32)
    (x11 : Vec Ideal S128x128 .f32) (x15 : Vec Ideal S5000x1 .f32) (r : Fin 5000) (q : Fin 128) :
    k2_pay1 x0 x2 x6 x11 x15 (ix2 r q)
      = (∑ k : Fin 128, (x0 (ix2 r k) * x2 (ix2 r (0 : Fin 1)) + x6 (ix2 (0 : Fin 1) k)) * x11 (ix2 k q)) * x15 (ix2 r (0 : Fin 1)) := by
  unfold k2_pay1
  simp only [shapeCast_self]
  rw [truncf_apply, mulf_apply, broadcastTo_a1_ab_apply, matmul_zero_apply]
  refine congrArg (· * _) (Finset.sum_congr rfl fun k _ => ?_)
  rw [truncf_apply, truncf_apply, addf_apply, mulf_apply, broadcastTo_a1_ab_apply, broadcastTo_1b_ab_apply]

/-- The printed index maps over the grid: the row-blocked windows move with the point, the weight and the bias are read whole. -/
theorem mid2_idx : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- Where point `t`'s input blocks sit in their arrays, against where its output block sits: the edge sum's and the
    scale's rows are the output's rows, the weight's and the bias's blocks are their whole arrays. -/
theorem mid2_emb (t : Fin cfg2.N) (r : Fin 5000) (q : Fin 128) :
    (∀ k : Fin 128, ((cfg2.win 0).blk t).view.emb (ix2 r k) = ix2 ((((cfg2.win 4).blk t).view.emb (ix2 r q)) 0) k)
    ∧ (∀ k : Fin 128, ((cfg2.win 1).blk t).view.emb (ix2 k q) = ix2 k ((((cfg2.win 4).blk t).view.emb (ix2 r q)) 1))
    ∧ ((cfg2.win 2).blk t).view.emb (ix2 r (0 : Fin 1)) = ix2 ((((cfg2.win 4).blk t).view.emb (ix2 r q)) 0) (0 : Fin 1)
    ∧ (∀ k : Fin 128, ((cfg2.win 3).blk t).view.emb (ix2 (0 : Fin 1) k) = ix2 (0 : Fin 1) k) := by
  obtain ⟨e40, e41, e00, e01, e10, e11, e20, e21, e30, e31⟩ := mid2_idx t
  refine ⟨fun k => ?_, fun k => ?_, ?_, fun k => ?_⟩
  · funext a; apply Fin.ext
    match a with
    | ⟨0, _⟩ => show win2_0.index t (0 : Fin 2) * 5000 + 1 * r.val = win2_4.index t (0 : Fin 2) * 5000 + 1 * r.val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 128 + 1 * q.val = win2_4.index t (1 : Fin 2) * 128 + 1 * q.val; omega
  · funext a; apply Fin.ext
    match a with
    | ⟨0, _⟩ => show win2_2.index t (0 : Fin 2) * 5000 + 1 * r.val = win2_4.index t (0 : Fin 2) * 5000 + 1 * r.val; omega
    | ⟨1, _⟩ => show win2_2.index t (1 : Fin 2) * 1 + 1 * 0 = 0; omega
  · funext a; apply Fin.ext
    match a with
    | ⟨0, _⟩ => show win2_3.index t (0 : Fin 2) * 1 + 1 * 0 = 0; omega
    | ⟨1, _⟩ => show win2_3.index t (1 : Fin 2) * 128 + 1 * k.val = k.val; omega

/-- So the body's arithmetic on point `t`'s blocks of any four arrays is `midG` of the arrays at the output block's place. -/
theorem mid2_block (t : Fin cfg2.N) (r : Fin 5000) (q : Fin 128)
    (A : S50000x128.Idx → EReal) (Wt : S128x128.Idx → EReal) (d : S50000x1.Idx → EReal) (b : S1x128.Idx → EReal) :
    (∑ k : Fin 128, (A (((cfg2.win 0).blk t).view.emb (ix2 r k)) * d (((cfg2.win 2).blk t).view.emb (ix2 r (0 : Fin 1)))
          + b (((cfg2.win 3).blk t).view.emb (ix2 (0 : Fin 1) k))) * Wt (((cfg2.win 1).blk t).view.emb (ix2 k q)))
      * d (((cfg2.win 2).blk t).view.emb (ix2 r (0 : Fin 1)))
    = midG A Wt d b (((cfg2.win 4).blk t).view.emb (ix2 r q)) := by
  obtain ⟨h0, h1, h2, h3⟩ := mid2_emb t r q
  rw [h2]
  refine congrArg (· * _) (Finset.sum_congr rfl fun k _ => ?_)
  rw [h0 k, h1 k, h3 k]
  rfl

/-- What point `t` writes back is block `t` of `midG` of the arrays the region finds. -/
theorem mid2_flushed (c : Dev nD) (t : Fin cfg2.N) :
    (dat2 (F := Ideal) V c).flushed 4 t
      = ((cfg2.win 4).blk t).view.read (Elt Ideal) (midG (V c main_v50) (V c main_v52) (V c main_v17) (V c main_v55)) := by
  show (cfg2.win 4).cut (grid2.coords t) ((dat2 V c).after 4 t) = _
  rw [after2_4]
  unfold out2_4
  rw [View.canon_unit_zero off_zero]
  simp only [View.ld_unit_zero (S := S5000x128) off_zero, View.ld_unit_zero (S := S128x128) off_zero, View.ld_unit_zero (S := S5000x1) off_zero, View.ld_unit_zero (S := S1x128) off_zero]
  funext j
  obtain ⟨r, q, rfl⟩ : ∃ (r : Fin 5000) (q : Fin 128), j = ix2 r q := ⟨j 0, j 1, eq_ix2 j⟩
  refine (mid2_pay_apply (iblk2 V c 0 t) (iblk2 V c 2 t) (iblk2 V c 3 t) (iblk2 V c 1 t) (iblk2 V c 2 t) r q).trans ?_
  exact mid2_block t r q (V c main_v50) (V c main_v52) (V c main_v17) (V c main_v55)

/-- An index of the output array is in point `t`'s block iff each coordinate is in the block's range on its axis. -/
theorem mid2_mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v56).slice (win2_4.rect t)).set ↔ _
  rw [View.set_slice_whole, Rect.mem_set_unit]
  exact Iff.rfl

/-- The ten row blocks tile the output array: row `p` is in the block of point `p / 5000`. -/
theorem mid2_cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e40, e41, -⟩ := mid2_idx t
  have et : t.val = (i 0).val / 5000 := rfl
  refine ⟨t, flush2_4 t, ?_⟩
  rw [mid2_mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The region's output array after the run. -/
theorem mid2_final (c : Dev nD) :
    (dat2 (F := Ideal) V c).arrAt 4 cfg2.N = midG (V c main_v50) (V c main_v52) (V c main_v17) (V c main_v55) :=
  (dat2 (F := Ideal) V c).arrAt_eq_of_cover 4 (midG (V c main_v50) (V c main_v52) (V c main_v17) (V c main_v55)) (fun t _ => mid2_flushed V c t) mid2_cover

theorem mid2_value (c : Dev nD) (A : S50000x128.Idx → EReal) (Wt : S128x128.Idx → EReal) (d : S50000x1.Idx → EReal) (b : S1x128.Idx → EReal)
    (hA : (V c main_v50 : S50000x128.Idx → EReal) = A) (hW : (V c main_v52 : S128x128.Idx → EReal) = Wt)
    (hd : (V c main_v17 : S50000x1.Idx → EReal) = d) (hb : (V c main_v55 : S1x128.Idx → EReal) = b)
    (O : S50000x128.Idx → EReal) (hO : ((dat2 (F := Ideal) V c).arrAt 4 cfg2.N : S50000x128.Idx → EReal) = O)
    (p : Fin 50000) (q : Fin 128) :
    O (ix2 p q) = (∑ k : Fin 128, (A (ix2 p k) * d (ix2 p (0 : Fin 1)) + b (ix2 (0 : Fin 1) k)) * Wt (ix2 k q)) * d (ix2 p (0 : Fin 1)) := by
  rw [← hO, mid2_final V c, hA, hW, hd, hb]

/-! ## The third middle region -/

/-- The middle body at a coordinate of its block: the block's row scaled and biased, through the weight, times the row's scale. -/
theorem mid3_pay_apply (x0 : Vec Ideal S5000x128 .f32) (x2 : Vec Ideal S5000x1 .f32) (x6 : Vec Ideal S1x128 .f32)
    (x11 : Vec Ideal S128x128 .f32) (x15 : Vec Ideal S5000x1 .f32) (r : Fin 5000) (q : Fin 128) :
    k3_pay1 x0 x2 x6 x11 x15 (ix2 r q)
      = (∑ k : Fin 128, (x0 (ix2 r k) * x2 (ix2 r (0 : Fin 1)) + x6 (ix2 (0 : Fin 1) k)) * x11 (ix2 k q)) * x15 (ix2 r (0 : Fin 1)) := by
  unfold k3_pay1
  simp only [shapeCast_self]
  rw [truncf_apply, mulf_apply, broadcastTo_a1_ab_apply, matmul_zero_apply]
  refine congrArg (· * _) (Finset.sum_congr rfl fun k _ => ?_)
  rw [truncf_apply, truncf_apply, addf_apply, mulf_apply, broadcastTo_a1_ab_apply, broadcastTo_1b_ab_apply]

/-- The printed index maps over the grid: the row-blocked windows move with the point, the weight and the bias are read whole. -/
theorem mid3_idx : ∀ t : Fin cfg3.N, win3_4.index t (0 : Fin 2) = t.val ∧ win3_4.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- Where point `t`'s input blocks sit in their arrays, against where its output block sits: the edge sum's and the
    scale's rows are the output's rows, the weight's and the bias's blocks are their whole arrays. -/
theorem mid3_emb (t : Fin cfg3.N) (r : Fin 5000) (q : Fin 128) :
    (∀ k : Fin 128, ((cfg3.win 0).blk t).view.emb (ix2 r k) = ix2 ((((cfg3.win 4).blk t).view.emb (ix2 r q)) 0) k)
    ∧ (∀ k : Fin 128, ((cfg3.win 1).blk t).view.emb (ix2 k q) = ix2 k ((((cfg3.win 4).blk t).view.emb (ix2 r q)) 1))
    ∧ ((cfg3.win 2).blk t).view.emb (ix2 r (0 : Fin 1)) = ix2 ((((cfg3.win 4).blk t).view.emb (ix2 r q)) 0) (0 : Fin 1)
    ∧ (∀ k : Fin 128, ((cfg3.win 3).blk t).view.emb (ix2 (0 : Fin 1) k) = ix2 (0 : Fin 1) k) := by
  obtain ⟨e40, e41, e00, e01, e10, e11, e20, e21, e30, e31⟩ := mid3_idx t
  refine ⟨fun k => ?_, fun k => ?_, ?_, fun k => ?_⟩
  · funext a; apply Fin.ext
    match a with
    | ⟨0, _⟩ => show win3_0.index t (0 : Fin 2) * 5000 + 1 * r.val = win3_4.index t (0 : Fin 2) * 5000 + 1 * r.val; omega
    | ⟨1, _⟩ => show win3_0.index t (1 : Fin 2) * 128 + 1 * k.val = k.val; omega
  · funext a; apply Fin.ext
    match a with
    | ⟨0, _⟩ => show win3_1.index t (0 : Fin 2) * 128 + 1 * k.val = k.val; omega
    | ⟨1, _⟩ => show win3_1.index t (1 : Fin 2) * 128 + 1 * q.val = win3_4.index t (1 : Fin 2) * 128 + 1 * q.val; omega
  · funext a; apply Fin.ext
    match a with
    | ⟨0, _⟩ => show win3_2.index t (0 : Fin 2) * 5000 + 1 * r.val = win3_4.index t (0 : Fin 2) * 5000 + 1 * r.val; omega
    | ⟨1, _⟩ => show win3_2.index t (1 : Fin 2) * 1 + 1 * 0 = 0; omega
  · funext a; apply Fin.ext
    match a with
    | ⟨0, _⟩ => show win3_3.index t (0 : Fin 2) * 1 + 1 * 0 = 0; omega
    | ⟨1, _⟩ => show win3_3.index t (1 : Fin 2) * 128 + 1 * k.val = k.val; omega

/-- So the body's arithmetic on point `t`'s blocks of any four arrays is `midG` of the arrays at the output block's place. -/
theorem mid3_block (t : Fin cfg3.N) (r : Fin 5000) (q : Fin 128)
    (A : S50000x128.Idx → EReal) (Wt : S128x128.Idx → EReal) (d : S50000x1.Idx → EReal) (b : S1x128.Idx → EReal) :
    (∑ k : Fin 128, (A (((cfg3.win 0).blk t).view.emb (ix2 r k)) * d (((cfg3.win 2).blk t).view.emb (ix2 r (0 : Fin 1)))
          + b (((cfg3.win 3).blk t).view.emb (ix2 (0 : Fin 1) k))) * Wt (((cfg3.win 1).blk t).view.emb (ix2 k q)))
      * d (((cfg3.win 2).blk t).view.emb (ix2 r (0 : Fin 1)))
    = midG A Wt d b (((cfg3.win 4).blk t).view.emb (ix2 r q)) := by
  obtain ⟨h0, h1, h2, h3⟩ := mid3_emb t r q
  rw [h2]
  refine congrArg (· * _) (Finset.sum_congr rfl fun k _ => ?_)
  rw [h0 k, h1 k, h3 k]
  rfl

/-- What point `t` writes back is block `t` of `midG` of the arrays the region finds. -/
theorem mid3_flushed (c : Dev nD) (t : Fin cfg3.N) :
    (dat3 (F := Ideal) V c).flushed 4 t
      = ((cfg3.win 4).blk t).view.read (Elt Ideal) (midG (V c main_v67) (V c main_v69) (V c main_v17) (V c main_v72)) := by
  show (cfg3.win 4).cut (grid3.coords t) ((dat3 V c).after 4 t) = _
  rw [after3_4]
  unfold out3_4
  rw [View.canon_unit_zero off_zero]
  simp only [View.ld_unit_zero (S := S5000x128) off_zero, View.ld_unit_zero (S := S128x128) off_zero, View.ld_unit_zero (S := S5000x1) off_zero, View.ld_unit_zero (S := S1x128) off_zero]
  funext j
  obtain ⟨r, q, rfl⟩ : ∃ (r : Fin 5000) (q : Fin 128), j = ix2 r q := ⟨j 0, j 1, eq_ix2 j⟩
  refine (mid3_pay_apply (iblk3 V c 0 t) (iblk3 V c 2 t) (iblk3 V c 3 t) (iblk3 V c 1 t) (iblk3 V c 2 t) r q).trans ?_
  exact mid3_block t r q (V c main_v67) (V c main_v69) (V c main_v17) (V c main_v72)

/-- An index of the output array is in point `t`'s block iff each coordinate is in the block's range on its axis. -/
theorem mid3_mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v73).slice (win3_4.rect t)).set ↔ _
  rw [View.set_slice_whole, Rect.mem_set_unit]
  exact Iff.rfl

/-- The ten row blocks tile the output array: row `p` is in the block of point `p / 5000`. -/
theorem mid3_cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨e40, e41, -⟩ := mid3_idx t
  have et : t.val = (i 0).val / 5000 := rfl
  refine ⟨t, flush3_4 t, ?_⟩
  rw [mid3_mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The region's output array after the run. -/
theorem mid3_final (c : Dev nD) :
    (dat3 (F := Ideal) V c).arrAt 4 cfg3.N = midG (V c main_v67) (V c main_v69) (V c main_v17) (V c main_v72) :=
  (dat3 (F := Ideal) V c).arrAt_eq_of_cover 4 (midG (V c main_v67) (V c main_v69) (V c main_v17) (V c main_v72)) (fun t _ => mid3_flushed V c t) mid3_cover

theorem mid3_value (c : Dev nD) (A : S50000x128.Idx → EReal) (Wt : S128x128.Idx → EReal) (d : S50000x1.Idx → EReal) (b : S1x128.Idx → EReal)
    (hA : (V c main_v67 : S50000x128.Idx → EReal) = A) (hW : (V c main_v69 : S128x128.Idx → EReal) = Wt)
    (hd : (V c main_v17 : S50000x1.Idx → EReal) = d) (hb : (V c main_v72 : S1x128.Idx → EReal) = b)
    (O : S50000x128.Idx → EReal) (hO : ((dat3 (F := Ideal) V c).arrAt 4 cfg3.N : S50000x128.Idx → EReal) = O)
    (p : Fin 50000) (q : Fin 128) :
    O (ix2 p q) = (∑ k : Fin 128, (A (ix2 p k) * d (ix2 p (0 : Fin 1)) + b (ix2 (0 : Fin 1) k)) * Wt (ix2 k q)) * d (ix2 p (0 : Fin 1)) := by
  rw [← hO, mid3_final V c, hA, hW, hd, hb]

/-! ## The last region -/

/-- The last body at a coordinate of its block: the block's entry times its row's scale, plus the bias at its lane. -/
theorem last_pay_apply (x0 : Vec Ideal S5000x128 .f32) (x1 : Vec Ideal S5000x1 .f32) (x2 : Vec Ideal S1x128 .f32) (r : Fin 5000) (q : Fin 128) :
    k4_pay1 x0 x1 x2 (ix2 r q) = x0 (ix2 r q) * x1 (ix2 r (0 : Fin 1)) + x2 (ix2 (0 : Fin 1) q) := by
  unfold k4_pay1
  simp only [shapeCast_self]
  rw [addf_apply, mulf_apply, broadcastTo_a1_ab_apply, broadcastTo_1b_ab_apply]

/-- What the last region's output array ends holding, as one function of the arrays it finds. -/
abbrev lastG (A : S50000x128.Idx → EReal) (d : S50000x1.Idx → EReal) (b : S1x128.Idx → EReal) : S50000x128.Idx → EReal :=
  fun i => A i * d (ix2 (i 0) (0 : Fin 1)) + b (ix2 (0 : Fin 1) (i 1))

/-- The printed index maps over the grid: the row-blocked windows move with the point, the bias is read whole. -/
theorem last_idx : ∀ t : Fin cfg4.N, win4_3.index t (0 : Fin 2) = t.val ∧ win4_3.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- What point `t` writes back is block `t` of `lastG` of the arrays the region finds. -/
theorem last_flushed (c : Dev nD) (t : Fin cfg4.N) :
    (dat4 (F := Ideal) V c).flushed 3 t
      = ((cfg4.win 3).blk t).view.read (Elt Ideal) (lastG (V c main_v84) (V c main_v17) (V c main_v87)) := by
  show (cfg4.win 3).cut (grid4.coords t) ((dat4 V c).after 3 t) = _
  rw [after4_3]
  unfold out4_3
  rw [View.canon_unit_zero off_zero]
  simp only [View.ld_unit_zero (S := S5000x128) off_zero, View.ld_unit_zero (S := S5000x1) off_zero, View.ld_unit_zero (S := S1x128) off_zero]
  obtain ⟨e30, e31, e00, e01, e10, e11, e20, e21⟩ := last_idx t
  funext j
  obtain ⟨r, q, rfl⟩ : ∃ (r : Fin 5000) (q : Fin 128), j = ix2 r q := ⟨j 0, j 1, eq_ix2 j⟩
  refine (last_pay_apply (iblk4 V c 0 t) (iblk4 V c 1 t) (iblk4 V c 2 t) r q).trans ?_
  have h0 : ((cfg4.win 0).blk t).view.emb (ix2 r q) = ((cfg4.win 3).blk t).view.emb (ix2 r q) := by
    funext a; apply Fin.ext
    match a with
    | ⟨0, _⟩ => show win4_0.index t (0 : Fin 2) * 5000 + 1 * r.val = win4_3.index t (0 : Fin 2) * 5000 + 1 * r.val; omega
    | ⟨1, _⟩ => show win4_0.index t (1 : Fin 2) * 128 + 1 * q.val = win4_3.index t (1 : Fin 2) * 128 + 1 * q.val; omega
  have h1 : ((cfg4.win 1).blk t).view.emb (ix2 r (0 : Fin 1)) = ix2 ((((cfg4.win 3).blk t).view.emb (ix2 r q)) 0) (0 : Fin 1) := by
    funext a; apply Fin.ext
    match a with
    | ⟨0, _⟩ => show win4_1.index t (0 : Fin 2) * 5000 + 1 * r.val = win4_3.index t (0 : Fin 2) * 5000 + 1 * r.val; omega
    | ⟨1, _⟩ => show win4_1.index t (1 : Fin 2) * 1 + 1 * 0 = 0; omega
  have h2 : ((cfg4.win 2).blk t).view.emb (ix2 (0 : Fin 1) q) = ix2 (0 : Fin 1) ((((cfg4.win 3).blk t).view.emb (ix2 r q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_3.index t (1 : Fin 2) * 128 + 1 * q.val; omega
  have key : ∀ (A : S50000x128.Idx → EReal) (d : S50000x1.Idx → EReal) (b : S1x128.Idx → EReal),
      A (((cfg4.win 0).blk t).view.emb (ix2 r q)) * d (((cfg4.win 1).blk t).view.emb (ix2 r (0 : Fin 1)))
        + b (((cfg4.win 2).blk t).view.emb (ix2 (0 : Fin 1) q))
      = lastG A d b (((cfg4.win 3).blk t).view.emb (ix2 r q)) := by
    intro A d b
    rw [h0, h1, h2]
    rfl
  exact key (V c main_v84) (V c main_v17) (V c main_v87)

/-- An index of the output array is in point `t`'s block iff each coordinate is in the block's range on its axis. -/
theorem last_mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v88).slice (win4_3.rect t)).set ↔ _
  rw [View.set_slice_whole, Rect.mem_set_unit]
  exact Iff.rfl

/-- The ten row blocks tile the output array: row `p` is in the block of point `p / 5000`. -/
theorem last_cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  obtain ⟨e30, e31, -⟩ := last_idx t
  have et : t.val = (i 0).val / 5000 := rfl
  refine ⟨t, flush4_3 t, ?_⟩
  rw [last_mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The last region's output array after the run. -/
theorem last_final (c : Dev nD) :
    (dat4 (F := Ideal) V c).arrAt 3 cfg4.N = lastG (V c main_v84) (V c main_v17) (V c main_v87) :=
  (dat4 (F := Ideal) V c).arrAt_eq_of_cover 3 (lastG (V c main_v84) (V c main_v17) (V c main_v87)) (fun t _ => last_flushed V c t) last_cover

/-- The last region: the edge sum scaled and biased. -/
theorem last_value (c : Dev nD) (A : S50000x128.Idx → EReal) (d : S50000x1.Idx → EReal) (b : S1x128.Idx → EReal)
    (hA : (V c main_v84 : S50000x128.Idx → EReal) = A) (hd : (V c main_v17 : S50000x1.Idx → EReal) = d)
    (hb : (V c main_v87 : S1x128.Idx → EReal) = b)
    (O : S50000x128.Idx → EReal) (hO : ((dat4 (F := Ideal) V c).arrAt 3 cfg4.N : S50000x128.Idx → EReal) = O)
    (p : Fin 50000) (q : Fin 128) :
    O (ix2 p q) = A (ix2 p q) * d (ix2 p (0 : Fin 1)) + b (ix2 (0 : Fin 1) q) := by
  rw [← hO, last_final V c, hA, hd, hb]

end Cert.KernelIdeal.RegVal

end
-- ==== Proof.KerValue.lean ====
/-
  The value of the kernel program, read through its host operations.

  The program computes, before its first region, the edge lists (source and target index of every edge, the given
  edges followed by one self-loop per node), the node scale dv (the inverse square root of the in-degree) and the folded
  weights W l = transpose of (GW l · LW l).  Region 0 leaves H0 = (X · W0) scaled row by row by dv.  Each later host
  stretch gathers the rows of the last region's output at the (normalised) source indices and adds them up at the
  target indices: the edge sum A.  Each middle region leaves ((A scaled by dv, plus the bias) · W l) scaled by dv; the
  last region leaves A scaled by dv plus the bias.  Unfolding the four layers gives the factored network.
-/
import proofs.«121010_j69320772158261_2_alg».proof.Proof.Gen.KernelIdeal.Frame
import proofs.«121010_j69320772158261_2_alg».proof.Proof.RegionValues
import proofs.«121010_j69320772158261_2_alg».proof.Proof.Spec
import proofs.«121010_j69320772158261_2_alg».proof.Proof.Edges
import Idealize.ShloMosaic.Lib.StableHlo.Run
import Idealize.ShloMosaic.Lib.Pipeline.Value
import Idealize.ShloMosaic.Lib.ValueIdx
import Idealize.ShloMosaic.Lib.ValueLayout
import Idealize.ShloMosaic.Lib.StackMember
import Idealize.ShloMosaic.Lib.IdealHost
import Idealize.ShloMosaic.PureOps.Ideal.Laws

set_option maxRecDepth 16384

noncomputable section

namespace Cert.KernelIdeal.KerValue

open Cert.KernelIdeal Cert.KernelIdeal.Gen Cert.Gcn
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- Edge e's raw source index, as the first host stretch leaves it. -/
def src : Edge → BitVec 32 := fun e => (W3 (F := Ideal) m ρ c (Proc.devRef .tc main_v3) : S650000.Idx → BitVec 32) (ix1 e)
/-- Edge e's raw target index. -/
def dst : Edge → BitVec 32 := fun e => (W3 (F := Ideal) m ρ c (Proc.devRef .tc main_v6) : S650000.Idx → BitVec 32) (ix1 e)
/-- Node i's scale. -/
def dv : Node → EReal := fun i => (W3 (F := Ideal) m ρ c (Proc.devRef .tc main_v16) : S50000.Idx → EReal) (ix1 i)

/-- "This stretch of host operations does not write this buffer": every operation's written buffer is another reference. -/
macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The host operations of one layer, read at an index -/

section AtIndex
variable {α : Type}

/-- A vector broadcast to a column reads its entry at the row. -/
theorem bcast_col_apply {n : Nat} (hn : n ≠ 1) (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  refine broadcastInDim_apply _ h x _ (ix1 e) fun a => ?_
  match a with
  | ⟨0, _⟩ => exact (if_neg hn).symm

/-- A vector broadcast to a row reads its entry at the column. -/
theorem bcast_row_apply {n : Nat} (hn : n ≠ 1) (h : (⟨1, ![n]⟩ : Shape).BroadcastsInDim ⟨2, ![1, n]⟩ ![1])
    (x : (⟨1, ![n]⟩ : Shape).Idx → α) (z : Fin 1) (k : Fin n) :
    broadcastInDim ⟨2, ![1, n]⟩ ![1] h x (ix2 z k) = x (ix1 k) := by
  refine broadcastInDim_apply _ h x _ (ix1 k) fun a => ?_
  match a with
  | ⟨0, _⟩ => exact (if_neg hn).symm

/-- Row l of the bias array, as the [1,128] row a region reads: sliced out, flattened, broadcast back to a row. -/
abbrev biasOf (a4 : S4x128.Idx → α) (l : Nat) (hs : S4x128.Slices ![l, 0] S1x128) : S1x128.Idx → α :=
  broadcastInDim S1x128 ![1] bcast_S128_S1x128_1 (shapeCast S128 (extractStridedSlice S1x128 ![l, 0] a4 hs) shapeCasts_S1x128_S128)

theorem biasOf_apply (a4 : S4x128.Idx → α) (l : Nat) (hl : l < 4) (hs : S4x128.Slices ![l, 0] S1x128) (z : Fin 1) (k : Fin 128) :
    biasOf a4 l hs (ix2 z k) = a4 (ix2 ⟨l, hl⟩ k) := by
  unfold biasOf
  rw [bcast_row_apply (by decide)]
  rw [shapeCast_apply (k := ix2 (0 : Fin 1) k) (hk := by
    rw [Shape.rowMajor_val_two, Shape.rowMajor_val_one]; show 0 * 128 + k.val = k.val; omega)]
  refine extractStridedSlice_apply _ a4 hs _ (ix2 ⟨l, hl⟩ k) fun a => ?_
  match a with
  | ⟨0, _⟩ => show l = l + 0; omega
  | ⟨1, _⟩ => show k.val = 0 + k.val; omega

/-- The folded weight of layer l as the [128,128] matrix a region reads: the batched product of the two weight stacks,
    transposed per layer, layer l sliced out and flattened. -/
abbrev wtOf (a3 a2 : FVec Ideal S4x128x128 .f32) (l : Nat) (hs : S4x128x128.Slices ![l, 0, 0] S1x128x128) : S128x128.Idx → EReal :=
  shapeCast S128x128 (extractStridedSlice S1x128x128 ![l, 0, 0]
    (transpose S4x128x128 [0, 2, 1] (Host.dotGeneral (F := Ideal) dot_S4x128x128_S4x128x128_S4x128x128_2_1_1_2_0_0 (some .fp32) a3 a2)
      transposes_S4x128x128_S4x128x128_0_2_1) hs) shapeCasts_S1x128x128_S128x128

theorem wtOf_apply (a3 a2 : FVec Ideal S4x128x128 .f32) (l : Nat) (hl : l < 4) (hs : S4x128x128.Slices ![l, 0, 0] S1x128x128)
    (k j : Fin 128) :
    wtOf a3 a2 l hs (ix2 k j) = comb (fun m' k' => a2 (ix3 (⟨l, hl⟩ : Fin 4) m' k')) (fun j' m' => a3 (ix3 (⟨l, hl⟩ : Fin 4) j' m')) k j := by
  unfold wtOf comb
  rw [shapeCast_apply (k := ix3 (0 : Fin 1) k j) (hk := by
    rw [Shape.rowMajor_val_three, Shape.rowMajor_val_two]; show (0 * 128 + k.val) * 128 + j.val = k.val * 128 + j.val; omega)]
  rw [extractStridedSlice_apply (k := ix3 (⟨l, hl⟩ : Fin 4) k j) (hk := fun a => by
    match a with
    | ⟨0, _⟩ => show l = l + 0; omega
    | ⟨1, _⟩ => show k.val = 0 + k.val; omega
    | ⟨2, _⟩ => show j.val = 0 + j.val; omega)]
  rw [transpose_apply (k := ix3 (⟨l, hl⟩ : Fin 4) j k) (hk := fun b => by
    match b with
    | ⟨0, _⟩ => rfl
    | ⟨1, _⟩ => rfl
    | ⟨2, _⟩ => rfl)]
  exact StackMember.dotGeneral_stack_apply (G := 4) (m := 128) (n := 128) (k := 128)
    dot_S4x128x128_S4x128x128_S4x128x128_2_1_1_2_0_0_wf (some .fp32) a3 a2 ⟨l, hl⟩ j k

/-- The gather + scatter-add stretch of one layer as one term of its three input arrays: the rows of H at the
    normalised source indices, widened, added into zeros at the target indices. -/
abbrev aggOf (H : FVec Ideal S50000x128 .bf16) (s d : IVec S650000 32) : FVec Ideal S50000x128 .f32 :=
  Host.scatterAdd (F := Ideal) scatter_S50000x128_S650000x1_S650000x128_1_0_0_1
    (broadcastInDim S50000x128 ![] bcast_S_S50000x128 (constant (F := Ideal) S_ .f32 0x00000000#32))
    (broadcastInDim S650000x1 ![0] bcast_S650000_S650000x1_0 d)
    (extf .f32 (Host.gather gather_S50000x128_S650000x1_S650000x128_1_0_n_n_0_1_1128 H
      (broadcastInDim S650000x1 ![0] bcast_S650000_S650000x1_0
        (select (cmpi .slt s (broadcastInDim S650000 ![] bcast_S_S650000 (constantI S_ 32 0#32)))
          (addi s (broadcastInDim S650000 ![] bcast_S_S650000 (constantI S_ 32 50000#32))) s))) bitsLt_bf16_f32)

/-- At (i, j) the stretch is the sum, over the edges landing at i, of H at (the row the edge gathers, j). -/
theorem aggOf_apply (H : FVec Ideal S50000x128 .bf16) (s d : IVec S650000 32) (i : Node) (j : Feat) :
    aggOf H s d (ix2 i j)
      = ∑ e ∈ Finset.univ.filter (fun e : Edge => hitOf (fun e => d (ix1 e)) e i), H (ix2 (gsOf (fun e => s (ix1 e)) e) j) := by
  have hsc : scatter_S50000x128_S650000x1_S650000x128_1_0_0_1
      = rowsAddDims 50000 650000 128 scatter_S50000x128_S650000x1_S650000x128_1_0_0_1_wf := rfl
  have hga : gather_S50000x128_S650000x1_S650000x128_1_0_n_n_0_1_1128
      = rowsDims 50000 650000 128 gather_S50000x128_S650000x1_S650000x128_1_0_n_n_0_1_1128_wf := rfl
  unfold aggOf
  rw [hsc, hga, scatterAdd_rows_apply]
  rw [show (broadcastInDim S50000x128 ![] bcast_S_S50000x128 (constant (F := Ideal) S_ .f32 0x00000000#32) : S50000x128.Idx → EReal) (ix2 i j)
      = 0 from Ideal.ofBits_zero_f32, zero_add]
  refine Finset.sum_congr ?_ fun e _ => ?_
  · ext e
    simp only [Finset.mem_filter, Finset.mem_univ, true_and]
    rw [bcast_col_apply (by decide)]
    rfl
  · show Host.gather (rowsDims 50000 650000 128 _) H _ (ix2 e j) = _
    rw [gather_rows_apply (by decide)]
    refine congrArg (fun r => H (ix2 r j)) (Fin.ext ?_)
    show min (_ : BitVec 32).toInt.toNat (50000 - 1) = min (norm32 (s (ix1 e))).toInt.toNat 49999
    rw [bcast_col_apply (by decide)]
    rfl

end AtIndex

/-! ## What persists: the buffers written (or given) before the first region and never written again -/

theorem keep_main_arg0_1 : W1 (F := Ideal) m ρ c (Proc.devRef .tc main_arg0) = m ((c : Thread nD τ).loc main_arg0) :=
  (show W1 (F := Ideal) m ρ c (Proc.devRef .tc main_arg0) = W0 (F := Ideal) m ρ c (Proc.devRef .tc main_arg0) from (by not_written hostOps0)).trans rfl
theorem keep_main_arg0_2 : W2 (F := Ideal) m ρ c (Proc.devRef .tc main_arg0) = m ((c : Thread nD τ).loc main_arg0) :=
  (show W2 (F := Ideal) m ρ c (Proc.devRef .tc main_arg0) = W1 (F := Ideal) m ρ c (Proc.devRef .tc main_arg0) from (by not_written hostOps0_1)).trans (keep_main_arg0_1 m ρ c)
theorem keep_main_arg0_3 : W3 (F := Ideal) m ρ c (Proc.devRef .tc main_arg0) = m ((c : Thread nD τ).loc main_arg0) :=
  (show W3 (F := Ideal) m ρ c (Proc.devRef .tc main_arg0) = W2 (F := Ideal) m ρ c (Proc.devRef .tc main_arg0) from (by not_written hostOps0_2)).trans (keep_main_arg0_2 m ρ c)
theorem keep_main_arg2_1 : W1 (F := Ideal) m ρ c (Proc.devRef .tc main_arg2) = m ((c : Thread nD τ).loc main_arg2) :=
  (show W1 (F := Ideal) m ρ c (Proc.devRef .tc main_arg2) = W0 (F := Ideal) m ρ c (Proc.devRef .tc main_arg2) from (by not_written hostOps0)).trans rfl
theorem keep_main_arg2_2 : W2 (F := Ideal) m ρ c (Proc.devRef .tc main_arg2) = m ((c : Thread nD τ).loc main_arg2) :=
  (show W2 (F := Ideal) m ρ c (Proc.devRef .tc main_arg2) = W1 (F := Ideal) m ρ c (Proc.devRef .tc main_arg2) from (by not_written hostOps0_1)).trans (keep_main_arg2_1 m ρ c)
theorem keep_main_arg3_1 : W1 (F := Ideal) m ρ c (Proc.devRef .tc main_arg3) = m ((c : Thread nD τ).loc main_arg3) :=
  (show W1 (F := Ideal) m ρ c (Proc.devRef .tc main_arg3) = W0 (F := Ideal) m ρ c (Proc.devRef .tc main_arg3) from (by not_written hostOps0)).trans rfl
theorem keep_main_arg3_2 : W2 (F := Ideal) m ρ c (Proc.devRef .tc main_arg3) = m ((c : Thread nD τ).loc main_arg3) :=
  (show W2 (F := Ideal) m ρ c (Proc.devRef .tc main_arg3) = W1 (F := Ideal) m ρ c (Proc.devRef .tc main_arg3) from (by not_written hostOps0_1)).trans (keep_main_arg3_1 m ρ c)
theorem keep_main_arg4_1 : W1 (F := Ideal) m ρ c (Proc.devRef .tc main_arg4) = m ((c : Thread nD τ).loc main_arg4) :=
  (show W1 (F := Ideal) m ρ c (Proc.devRef .tc main_arg4) = W0 (F := Ideal) m ρ c (Proc.devRef .tc main_arg4) from (by not_written hostOps0)).trans rfl
theorem keep_main_arg4_2 : W2 (F := Ideal) m ρ c (Proc.devRef .tc main_arg4) = m ((c : Thread nD τ).loc main_arg4) :=
  (show W2 (F := Ideal) m ρ c (Proc.devRef .tc main_arg4) = W1 (F := Ideal) m ρ c (Proc.devRef .tc main_arg4) from (by not_written hostOps0_1)).trans (keep_main_arg4_1 m ρ c)
theorem keep_main_arg4_3 : W3 (F := Ideal) m ρ c (Proc.devRef .tc main_arg4) = m ((c : Thread nD τ).loc main_arg4) :=
  (show W3 (F := Ideal) m ρ c (Proc.devRef .tc main_arg4) = W2 (F := Ideal) m ρ c (Proc.devRef .tc main_arg4) from (by not_written hostOps0_2)).trans (keep_main_arg4_2 m ρ c)
theorem keep_main_arg4_4 : W4 (F := Ideal) m ρ c (Proc.devRef .tc main_arg4) = m ((c : Thread nD τ).loc main_arg4) :=
  (show W4 (F := Ideal) m ρ c (Proc.devRef .tc main_arg4) = W3 (F := Ideal) m ρ c (Proc.devRef .tc main_arg4) from (W4_of_ne m ρ c main_arg4 (by decide))).trans (keep_main_arg4_3 m ρ c)
theorem keep_main_arg4_5 : W5 (F := Ideal) m ρ c (Proc.devRef .tc main_arg4) = m ((c : Thread nD τ).loc main_arg4) :=
  (show W5 (F := Ideal) m ρ c (Proc.devRef .tc main_arg4) = W4 (F := Ideal) m ρ c (Proc.devRef .tc main_arg4) from (by not_written hostOps1)).trans (keep_main_arg4_4 m ρ c)
theorem keep_main_arg4_6 : W6 (F := Ideal) m ρ c (Proc.devRef .tc main_arg4) = m ((c : Thread nD τ).loc main_arg4) :=
  (show W6 (F := Ideal) m ρ c (Proc.devRef .tc main_arg4) = W5 (F := Ideal) m ρ c (Proc.devRef .tc main_arg4) from (W6_of_ne m ρ c main_arg4 (by decide))).trans (keep_main_arg4_5 m ρ c)
theorem keep_main_arg4_7 : W7 (F := Ideal) m ρ c (Proc.devRef .tc main_arg4) = m ((c : Thread nD τ).loc main_arg4) :=
  (show W7 (F := Ideal) m ρ c (Proc.devRef .tc main_arg4) = W6 (F := Ideal) m ρ c (Proc.devRef .tc main_arg4) from (by not_written hostOps2)).trans (keep_main_arg4_6 m ρ c)
theorem keep_main_arg4_8 : W8 (F := Ideal) m ρ c (Proc.devRef .tc main_arg4) = m ((c : Thread nD τ).loc main_arg4) :=
  (show W8 (F := Ideal) m ρ c (Proc.devRef .tc main_arg4) = W7 (F := Ideal) m ρ c (Proc.devRef .tc main_arg4) from (W8_of_ne m ρ c main_arg4 (by decide))).trans (keep_main_arg4_7 m ρ c)
theorem keep_main_arg4_9 : W9 (F := Ideal) m ρ c (Proc.devRef .tc main_arg4) = m ((c : Thread nD τ).loc main_arg4) :=
  (show W9 (F := Ideal) m ρ c (Proc.devRef .tc main_arg4) = W8 (F := Ideal) m ρ c (Proc.devRef .tc main_arg4) from (by not_written hostOps3)).trans (keep_main_arg4_8 m ρ c)
theorem keep_main_arg4_10 : W10 (F := Ideal) m ρ c (Proc.devRef .tc main_arg4) = m ((c : Thread nD τ).loc main_arg4) :=
  (show W10 (F := Ideal) m ρ c (Proc.devRef .tc main_arg4) = W9 (F := Ideal) m ρ c (Proc.devRef .tc main_arg4) from (W10_of_ne m ρ c main_arg4 (by decide))).trans (keep_main_arg4_9 m ρ c)
theorem keep_main_v3_4 : W4 (F := Ideal) m ρ c (Proc.devRef .tc main_v3) = W3 (F := Ideal) m ρ c (Proc.devRef .tc main_v3) :=
  (show W4 (F := Ideal) m ρ c (Proc.devRef .tc main_v3) = W3 (F := Ideal) m ρ c (Proc.devRef .tc main_v3) from (W4_of_ne m ρ c main_v3 (by decide)))
theorem keep_main_v3_5 : W5 (F := Ideal) m ρ c (Proc.devRef .tc main_v3) = W3 (F := Ideal) m ρ c (Proc.devRef .tc main_v3) :=
  (show W5 (F := Ideal) m ρ c (Proc.devRef .tc main_v3) = W4 (F := Ideal) m ρ c (Proc.devRef .tc main_v3) from (by not_written hostOps1)).trans (keep_main_v3_4 m ρ c)
theorem keep_main_v3_6 : W6 (F := Ideal) m ρ c (Proc.devRef .tc main_v3) = W3 (F := Ideal) m ρ c (Proc.devRef .tc main_v3) :=
  (show W6 (F := Ideal) m ρ c (Proc.devRef .tc main_v3) = W5 (F := Ideal) m ρ c (Proc.devRef .tc main_v3) from (W6_of_ne m ρ c main_v3 (by decide))).trans (keep_main_v3_5 m ρ c)
theorem keep_main_v3_7 : W7 (F := Ideal) m ρ c (Proc.devRef .tc main_v3) = W3 (F := Ideal) m ρ c (Proc.devRef .tc main_v3) :=
  (show W7 (F := Ideal) m ρ c (Proc.devRef .tc main_v3) = W6 (F := Ideal) m ρ c (Proc.devRef .tc main_v3) from (by not_written hostOps2)).trans (keep_main_v3_6 m ρ c)
theorem keep_main_v3_8 : W8 (F := Ideal) m ρ c (Proc.devRef .tc main_v3) = W3 (F := Ideal) m ρ c (Proc.devRef .tc main_v3) :=
  (show W8 (F := Ideal) m ρ c (Proc.devRef .tc main_v3) = W7 (F := Ideal) m ρ c (Proc.devRef .tc main_v3) from (W8_of_ne m ρ c main_v3 (by decide))).trans (keep_main_v3_7 m ρ c)
theorem keep_main_v3_9 : W9 (F := Ideal) m ρ c (Proc.devRef .tc main_v3) = W3 (F := Ideal) m ρ c (Proc.devRef .tc main_v3) :=
  (show W9 (F := Ideal) m ρ c (Proc.devRef .tc main_v3) = W8 (F := Ideal) m ρ c (Proc.devRef .tc main_v3) from (by not_written hostOps3)).trans (keep_main_v3_8 m ρ c)
theorem keep_main_v3_10 : W10 (F := Ideal) m ρ c (Proc.devRef .tc main_v3) = W3 (F := Ideal) m ρ c (Proc.devRef .tc main_v3) :=
  (show W10 (F := Ideal) m ρ c (Proc.devRef .tc main_v3) = W9 (F := Ideal) m ρ c (Proc.devRef .tc main_v3) from (W10_of_ne m ρ c main_v3 (by decide))).trans (keep_main_v3_9 m ρ c)
theorem keep_main_v6_4 : W4 (F := Ideal) m ρ c (Proc.devRef .tc main_v6) = W3 (F := Ideal) m ρ c (Proc.devRef .tc main_v6) :=
  (show W4 (F := Ideal) m ρ c (Proc.devRef .tc main_v6) = W3 (F := Ideal) m ρ c (Proc.devRef .tc main_v6) from (W4_of_ne m ρ c main_v6 (by decide)))
theorem keep_main_v6_5 : W5 (F := Ideal) m ρ c (Proc.devRef .tc main_v6) = W3 (F := Ideal) m ρ c (Proc.devRef .tc main_v6) :=
  (show W5 (F := Ideal) m ρ c (Proc.devRef .tc main_v6) = W4 (F := Ideal) m ρ c (Proc.devRef .tc main_v6) from (by not_written hostOps1)).trans (keep_main_v6_4 m ρ c)
theorem keep_main_v6_6 : W6 (F := Ideal) m ρ c (Proc.devRef .tc main_v6) = W3 (F := Ideal) m ρ c (Proc.devRef .tc main_v6) :=
  (show W6 (F := Ideal) m ρ c (Proc.devRef .tc main_v6) = W5 (F := Ideal) m ρ c (Proc.devRef .tc main_v6) from (W6_of_ne m ρ c main_v6 (by decide))).trans (keep_main_v6_5 m ρ c)
theorem keep_main_v6_7 : W7 (F := Ideal) m ρ c (Proc.devRef .tc main_v6) = W3 (F := Ideal) m ρ c (Proc.devRef .tc main_v6) :=
  (show W7 (F := Ideal) m ρ c (Proc.devRef .tc main_v6) = W6 (F := Ideal) m ρ c (Proc.devRef .tc main_v6) from (by not_written hostOps2)).trans (keep_main_v6_6 m ρ c)
theorem keep_main_v6_8 : W8 (F := Ideal) m ρ c (Proc.devRef .tc main_v6) = W3 (F := Ideal) m ρ c (Proc.devRef .tc main_v6) :=
  (show W8 (F := Ideal) m ρ c (Proc.devRef .tc main_v6) = W7 (F := Ideal) m ρ c (Proc.devRef .tc main_v6) from (W8_of_ne m ρ c main_v6 (by decide))).trans (keep_main_v6_7 m ρ c)
theorem keep_main_v6_9 : W9 (F := Ideal) m ρ c (Proc.devRef .tc main_v6) = W3 (F := Ideal) m ρ c (Proc.devRef .tc main_v6) :=
  (show W9 (F := Ideal) m ρ c (Proc.devRef .tc main_v6) = W8 (F := Ideal) m ρ c (Proc.devRef .tc main_v6) from (by not_written hostOps3)).trans (keep_main_v6_8 m ρ c)
theorem keep_main_v6_10 : W10 (F := Ideal) m ρ c (Proc.devRef .tc main_v6) = W3 (F := Ideal) m ρ c (Proc.devRef .tc main_v6) :=
  (show W10 (F := Ideal) m ρ c (Proc.devRef .tc main_v6) = W9 (F := Ideal) m ρ c (Proc.devRef .tc main_v6) from (W10_of_ne m ρ c main_v6 (by decide))).trans (keep_main_v6_9 m ρ c)
theorem keep_main_v19_4 : W4 (F := Ideal) m ρ c (Proc.devRef .tc main_v19) = W3 (F := Ideal) m ρ c (Proc.devRef .tc main_v19) :=
  (show W4 (F := Ideal) m ρ c (Proc.devRef .tc main_v19) = W3 (F := Ideal) m ρ c (Proc.devRef .tc main_v19) from (W4_of_ne m ρ c main_v19 (by decide)))
theorem keep_main_v19_5 : W5 (F := Ideal) m ρ c (Proc.devRef .tc main_v19) = W3 (F := Ideal) m ρ c (Proc.devRef .tc main_v19) :=
  (show W5 (F := Ideal) m ρ c (Proc.devRef .tc main_v19) = W4 (F := Ideal) m ρ c (Proc.devRef .tc main_v19) from (by not_written hostOps1)).trans (keep_main_v19_4 m ρ c)
theorem keep_main_v19_6 : W6 (F := Ideal) m ρ c (Proc.devRef .tc main_v19) = W3 (F := Ideal) m ρ c (Proc.devRef .tc main_v19) :=
  (show W6 (F := Ideal) m ρ c (Proc.devRef .tc main_v19) = W5 (F := Ideal) m ρ c (Proc.devRef .tc main_v19) from (W6_of_ne m ρ c main_v19 (by decide))).trans (keep_main_v19_5 m ρ c)
theorem keep_main_v19_7 : W7 (F := Ideal) m ρ c (Proc.devRef .tc main_v19) = W3 (F := Ideal) m ρ c (Proc.devRef .tc main_v19) :=
  (show W7 (F := Ideal) m ρ c (Proc.devRef .tc main_v19) = W6 (F := Ideal) m ρ c (Proc.devRef .tc main_v19) from (by not_written hostOps2)).trans (keep_main_v19_6 m ρ c)
theorem keep_main_v19_8 : W8 (F := Ideal) m ρ c (Proc.devRef .tc main_v19) = W3 (F := Ideal) m ρ c (Proc.devRef .tc main_v19) :=
  (show W8 (F := Ideal) m ρ c (Proc.devRef .tc main_v19) = W7 (F := Ideal) m ρ c (Proc.devRef .tc main_v19) from (W8_of_ne m ρ c main_v19 (by decide))).trans (keep_main_v19_7 m ρ c)
theorem keep_main_v17_4 : W4 (F := Ideal) m ρ c (Proc.devRef .tc main_v17) = W3 (F := Ideal) m ρ c (Proc.devRef .tc main_v17) :=
  (show W4 (F := Ideal) m ρ c (Proc.devRef .tc main_v17) = W3 (F := Ideal) m ρ c (Proc.devRef .tc main_v17) from ((W4_arr m ρ c 2).trans (((dat0 (V3 (F := Ideal) m ρ) c).arrAt_in 2 rfl _).trans (A_eq0 (V3 (F := Ideal) m ρ) c 2))))
theorem keep_main_v17_5 : W5 (F := Ideal) m ρ c (Proc.devRef .tc main_v17) = W3 (F := Ideal) m ρ c (Proc.devRef .tc main_v17) :=
  (show W5 (F := Ideal) m ρ c (Proc.devRef .tc main_v17) = W4 (F := Ideal) m ρ c (Proc.devRef .tc main_v17) from (by not_written hostOps1)).trans (keep_main_v17_4 m ρ c)
theorem keep_main_v17_6 : W6 (F := Ideal) m ρ c (Proc.devRef .tc main_v17) = W3 (F := Ideal) m ρ c (Proc.devRef .tc main_v17) :=
  (show W6 (F := Ideal) m ρ c (Proc.devRef .tc main_v17) = W5 (F := Ideal) m ρ c (Proc.devRef .tc main_v17) from ((W6_arr m ρ c 2).trans (((dat1 (V5 (F := Ideal) m ρ) c).arrAt_in 2 rfl _).trans (A_eq1 (V5 (F := Ideal) m ρ) c 2)))).trans (keep_main_v17_5 m ρ c)
theorem keep_main_v17_7 : W7 (F := Ideal) m ρ c (Proc.devRef .tc main_v17) = W3 (F := Ideal) m ρ c (Proc.devRef .tc main_v17) :=
  (show W7 (F := Ideal) m ρ c (Proc.devRef .tc main_v17) = W6 (F := Ideal) m ρ c (Proc.devRef .tc main_v17) from (by not_written hostOps2)).trans (keep_main_v17_6 m ρ c)
theorem keep_main_v17_8 : W8 (F := Ideal) m ρ c (Proc.devRef .tc main_v17) = W3 (F := Ideal) m ρ c (Proc.devRef .tc main_v17) :=
  (show W8 (F := Ideal) m ρ c (Proc.devRef .tc main_v17) = W7 (F := Ideal) m ρ c (Proc.devRef .tc main_v17) from ((W8_arr m ρ c 2).trans (((dat2 (V7 (F := Ideal) m ρ) c).arrAt_in 2 rfl _).trans (A_eq2 (V7 (F := Ideal) m ρ) c 2)))).trans (keep_main_v17_7 m ρ c)
theorem keep_main_v17_9 : W9 (F := Ideal) m ρ c (Proc.devRef .tc main_v17) = W3 (F := Ideal) m ρ c (Proc.devRef .tc main_v17) :=
  (show W9 (F := Ideal) m ρ c (Proc.devRef .tc main_v17) = W8 (F := Ideal) m ρ c (Proc.devRef .tc main_v17) from (by not_written hostOps3)).trans (keep_main_v17_8 m ρ c)
theorem keep_main_v17_10 : W10 (F := Ideal) m ρ c (Proc.devRef .tc main_v17) = W3 (F := Ideal) m ρ c (Proc.devRef .tc main_v17) :=
  (show W10 (F := Ideal) m ρ c (Proc.devRef .tc main_v17) = W9 (F := Ideal) m ρ c (Proc.devRef .tc main_v17) from ((W10_arr m ρ c 2).trans (((dat3 (V9 (F := Ideal) m ρ) c).arrAt_in 2 rfl _).trans (A_eq3 (V9 (F := Ideal) m ρ) c 2)))).trans (keep_main_v17_9 m ρ c)
theorem keep_main_v17_11 : W11 (F := Ideal) m ρ c (Proc.devRef .tc main_v17) = W3 (F := Ideal) m ρ c (Proc.devRef .tc main_v17) :=
  (show W11 (F := Ideal) m ρ c (Proc.devRef .tc main_v17) = W10 (F := Ideal) m ρ c (Proc.devRef .tc main_v17) from (by not_written hostOps4)).trans (keep_main_v17_10 m ρ c)

/-! ## What the host stretches leave, as terms of what they find -/

/-- The column of scales every region reads is the scale vector broadcast along its rows. -/
theorem v17_term : (W3 (F := Ideal) m ρ c (Proc.devRef .tc main_v17) : S50000x1.Idx → EReal) = broadcastInDim S50000x1 ![0] bcast_S50000_S50000x1_0 (W3 (F := Ideal) m ρ c (Proc.devRef .tc main_v16) : S50000.Idx → EReal) := by
  have e16 : W3 (F := Ideal) m ρ c (Proc.devRef .tc main_v16) = W2 (F := Ideal) m ρ c (Proc.devRef .tc main_v16) := by
    not_written hostOps0_2
  rw [e16]
  show StableHlo.after hostOps0_2 (W2 (F := Ideal) m ρ c) (Proc.devRef .tc main_v17) = _
  generalize W2 (F := Ideal) m ρ c = V2
  after_results
  try rfl

/-- The transposed folded weights, all four layers. -/
theorem v19_term : (W3 (F := Ideal) m ρ c (Proc.devRef .tc main_v19) : S4x128x128.Idx → EReal) = transpose S4x128x128 [0, 2, 1] (Host.dotGeneral (F := Ideal) (φ₁ := .f32) (φ₂ := .f32) dot_S4x128x128_S4x128x128_S4x128x128_2_1_1_2_0_0 (some .fp32)
        (W2 (F := Ideal) m ρ c (Proc.devRef .tc main_arg3)) (W2 (F := Ideal) m ρ c (Proc.devRef .tc main_arg2)))
      transposes_S4x128x128_S4x128x128_0_2_1 := by
  show StableHlo.after hostOps0_2 (W2 (F := Ideal) m ρ c) (Proc.devRef .tc main_v19) = _
  generalize W2 (F := Ideal) m ρ c = V2
  after_results
  try rfl

/-- Layer 0's folded weight. -/
theorem v21_term : (W3 (F := Ideal) m ρ c (Proc.devRef .tc main_v21) : S128x128.Idx → EReal)
    = shapeCast S128x128 (extractStridedSlice S1x128x128 ![0, 0, 0] (transpose S4x128x128 [0, 2, 1] (Host.dotGeneral (F := Ideal) (φ₁ := .f32) (φ₂ := .f32) dot_S4x128x128_S4x128x128_S4x128x128_2_1_1_2_0_0 (some .fp32)
        (W2 (F := Ideal) m ρ c (Proc.devRef .tc main_arg3)) (W2 (F := Ideal) m ρ c (Proc.devRef .tc main_arg2)))
      transposes_S4x128x128_S4x128x128_0_2_1) slices_S4x128x128_S1x128x128_0_0_0) shapeCasts_S1x128x128_S128x128 := by
  show StableHlo.after hostOps0_2 (W2 (F := Ideal) m ρ c) (Proc.devRef .tc main_v21) = _
  generalize W2 (F := Ideal) m ρ c = V2
  after_results
  try rfl

/-- Host stretch 1: the edge sum of the last region's output. -/
theorem agg1_term : (W5 (F := Ideal) m ρ c (Proc.devRef .tc main_v33) : S50000x128.Idx → EReal)
    = aggOf (W4 (F := Ideal) m ρ c (Proc.devRef .tc main_v22) : FVec Ideal S50000x128 .bf16) (W4 (F := Ideal) m ρ c (Proc.devRef .tc main_v3) : IVec S650000 32) (W4 (F := Ideal) m ρ c (Proc.devRef .tc main_v6) : IVec S650000 32) := by
  show StableHlo.after hostOps1 (W4 (F := Ideal) m ρ c) (Proc.devRef .tc main_v33) = _
  after_results
  try rfl
/-- Host stretch 1: the bias row. -/
theorem bias1_term : (W5 (F := Ideal) m ρ c (Proc.devRef .tc main_v38) : S1x128.Idx → EReal) = biasOf (W4 (F := Ideal) m ρ c (Proc.devRef .tc main_arg4) : S4x128.Idx → EReal) 0 slices_S4x128_S1x128_0_0 := by
  show StableHlo.after hostOps1 (W4 (F := Ideal) m ρ c) (Proc.devRef .tc main_v38) = _
  after_results
  try rfl
/-- Host stretch 1: the layer's folded weight. -/
theorem wt1_term : (W5 (F := Ideal) m ρ c (Proc.devRef .tc main_v35) : S128x128.Idx → EReal)
    = shapeCast S128x128 (extractStridedSlice S1x128x128 ![1, 0, 0] (W4 (F := Ideal) m ρ c (Proc.devRef .tc main_v19) : S4x128x128.Idx → EReal) slices_S4x128x128_S1x128x128_1_0_0) shapeCasts_S1x128x128_S128x128 := by
  show StableHlo.after hostOps1 (W4 (F := Ideal) m ρ c) (Proc.devRef .tc main_v35) = _
  after_results
  try rfl

/-- Host stretch 2: the edge sum of the last region's output. -/
theorem agg2_term : (W7 (F := Ideal) m ρ c (Proc.devRef .tc main_v50) : S50000x128.Idx → EReal)
    = aggOf (W6 (F := Ideal) m ρ c (Proc.devRef .tc main_v39) : FVec Ideal S50000x128 .bf16) (W6 (F := Ideal) m ρ c (Proc.devRef .tc main_v3) : IVec S650000 32) (W6 (F := Ideal) m ρ c (Proc.devRef .tc main_v6) : IVec S650000 32) := by
  show StableHlo.after hostOps2 (W6 (F := Ideal) m ρ c) (Proc.devRef .tc main_v50) = _
  after_results
  try rfl
/-- Host stretch 2: the bias row. -/
theorem bias2_term : (W7 (F := Ideal) m ρ c (Proc.devRef .tc main_v55) : S1x128.Idx → EReal) = biasOf (W6 (F := Ideal) m ρ c (Proc.devRef .tc main_arg4) : S4x128.Idx → EReal) 1 slices_S4x128_S1x128_1_0 := by
  show StableHlo.after hostOps2 (W6 (F := Ideal) m ρ c) (Proc.devRef .tc main_v55) = _
  after_results
  try rfl
/-- Host stretch 2: the layer's folded weight. -/
theorem wt2_term : (W7 (F := Ideal) m ρ c (Proc.devRef .tc main_v52) : S128x128.Idx → EReal)
    = shapeCast S128x128 (extractStridedSlice S1x128x128 ![2, 0, 0] (W6 (F := Ideal) m ρ c (Proc.devRef .tc main_v19) : S4x128x128.Idx → EReal) slices_S4x128x128_S1x128x128_2_0_0) shapeCasts_S1x128x128_S128x128 := by
  show StableHlo.after hostOps2 (W6 (F := Ideal) m ρ c) (Proc.devRef .tc main_v52) = _
  after_results
  try rfl

/-- Host stretch 3: the edge sum of the last region's output. -/
theorem agg3_term : (W9 (F := Ideal) m ρ c (Proc.devRef .tc main_v67) : S50000x128.Idx → EReal)
    = aggOf (W8 (F := Ideal) m ρ c (Proc.devRef .tc main_v56) : FVec Ideal S50000x128 .bf16) (W8 (F := Ideal) m ρ c (Proc.devRef .tc main_v3) : IVec S650000 32) (W8 (F := Ideal) m ρ c (Proc.devRef .tc main_v6) : IVec S650000 32) := by
  show StableHlo.after hostOps3 (W8 (F := Ideal) m ρ c) (Proc.devRef .tc main_v67) = _
  after_results
  try rfl
/-- Host stretch 3: the bias row. -/
theorem bias3_term : (W9 (F := Ideal) m ρ c (Proc.devRef .tc main_v72) : S1x128.Idx → EReal) = biasOf (W8 (F := Ideal) m ρ c (Proc.devRef .tc main_arg4) : S4x128.Idx → EReal) 2 slices_S4x128_S1x128_2_0 := by
  show StableHlo.after hostOps3 (W8 (F := Ideal) m ρ c) (Proc.devRef .tc main_v72) = _
  after_results
  try rfl
/-- Host stretch 3: the layer's folded weight. -/
theorem wt3_term : (W9 (F := Ideal) m ρ c (Proc.devRef .tc main_v69) : S128x128.Idx → EReal)
    = shapeCast S128x128 (extractStridedSlice S1x128x128 ![3, 0, 0] (W8 (F := Ideal) m ρ c (Proc.devRef .tc main_v19) : S4x128x128.Idx → EReal) slices_S4x128x128_S1x128x128_3_0_0) shapeCasts_S1x128x128_S128x128 := by
  show StableHlo.after hostOps3 (W8 (F := Ideal) m ρ c) (Proc.devRef .tc main_v69) = _
  after_results
  try rfl

/-- Host stretch 4: the edge sum of the last region's output. -/
theorem agg4_term : (W11 (F := Ideal) m ρ c (Proc.devRef .tc main_v84) : S50000x128.Idx → EReal)
    = aggOf (W10 (F := Ideal) m ρ c (Proc.devRef .tc main_v73) : FVec Ideal S50000x128 .bf16) (W10 (F := Ideal) m ρ c (Proc.devRef .tc main_v3) : IVec S650000 32) (W10 (F := Ideal) m ρ c (Proc.devRef .tc main_v6) : IVec S650000 32) := by
  show StableHlo.after hostOps4 (W10 (F := Ideal) m ρ c) (Proc.devRef .tc main_v84) = _
  after_results
  try rfl
/-- Host stretch 4: the bias row. -/
theorem bias4_term : (W11 (F := Ideal) m ρ c (Proc.devRef .tc main_v87) : S1x128.Idx → EReal) = biasOf (W10 (F := Ideal) m ρ c (Proc.devRef .tc main_arg4) : S4x128.Idx → EReal) 3 slices_S4x128_S1x128_3_0 := by
  show StableHlo.after hostOps4 (W10 (F := Ideal) m ρ c) (Proc.devRef .tc main_v87) = _
  after_results
  try rfl

/-! ## The layers -/

/-- Region 0: the rows of x through layer 0's folded weight, scaled. -/
theorem layer0_value (a0 : S50000x128.Idx → EReal) (a2 a3 : S4x128x128.Idx → EReal)
    (h0 : (m ((c : Thread nD τ).loc main_arg0) : S50000x128.Idx → EReal) = a0) (h2 : (m ((c : Thread nD τ).loc main_arg2) : S4x128x128.Idx → EReal) = a2) (h3 : (m ((c : Thread nD τ).loc main_arg3) : S4x128x128.Idx → EReal) = a3)
    (O0 : S50000x128.Idx → EReal) (hO0 : (W4 (F := Ideal) m ρ c (Proc.devRef .tc main_v22) : S50000x128.Idx → EReal) = O0) :
    (fun (i : Node) (j : Feat) => O0 (ix2 i j)) = kerH (dv m ρ c) (comb (fun m' k' => a2 (ix3 (0 : Fin 4) m' k')) (fun j' m' => a3 (ix3 (0 : Fin 4) j' m'))) (fun i k => a0 (ix2 i k)) := by
  funext p q
  have hX : (V3 (F := Ideal) m ρ c main_arg0 : S50000x128.Idx → EReal) = a0 := (keep_main_arg0_3 m ρ c).trans h0
  have hW : (V3 (F := Ideal) m ρ c main_v21 : S128x128.Idx → EReal) = wtOf a3 a2 0 slices_S4x128x128_S1x128x128_0_0_0 := by
    rw [← h2, ← h3]
    exact (v21_term m ρ c).trans (by rw [keep_main_arg3_2, keep_main_arg2_2])
  have hd : (V3 (F := Ideal) m ρ c main_v17 : S50000x1.Idx → EReal) = broadcastInDim S50000x1 ![0] bcast_S50000_S50000x1_0 (W3 (F := Ideal) m ρ c (Proc.devRef .tc main_v16) : S50000.Idx → EReal) := v17_term m ρ c
  have hO : ((dat0 (F := Ideal) (V3 (F := Ideal) m ρ) c).arrAt 3 cfg0.N : S50000x128.Idx → EReal) = O0 :=
    (W4_arr (F := Ideal) m ρ c 3).symm.trans hO0
  rw [RegVal.first_value (V3 (F := Ideal) m ρ) c a0 _ _ hX hW hd O0 hO p q]
  unfold kerH
  rw [bcast_col_apply (by decide)]
  show (∑ k : Fin 128, a0 (ix2 p k) * wtOf a3 a2 0 _ (ix2 k q)) * _ = (∑ k : Fin 128, a0 (ix2 p k) * comb (fun m' k' => a2 (ix3 (0 : Fin 4) m' k')) (fun j' m' => a3 (ix3 (0 : Fin 4) j' m')) k q) * dv m ρ c p
  congr 1
  refine Finset.sum_congr rfl fun k _ => ?_
  rw [wtOf_apply a3 a2 0 (by decide)]
  try rfl

/-- Region 1: the edge sum scaled and biased, through layer 1's folded weight, scaled. -/
theorem layer1_value (a2 a3 : S4x128x128.Idx → EReal) (a4 : S4x128.Idx → EReal)
    (h2 : (m ((c : Thread nD τ).loc main_arg2) : S4x128x128.Idx → EReal) = a2) (h3 : (m ((c : Thread nD τ).loc main_arg3) : S4x128x128.Idx → EReal) = a3) (h4 : (m ((c : Thread nD τ).loc main_arg4) : S4x128.Idx → EReal) = a4)
    (Hp : S50000x128.Idx → EReal) (hH : (W4 (F := Ideal) m ρ c (Proc.devRef .tc main_v22) : S50000x128.Idx → EReal) = Hp)
    (O : S50000x128.Idx → EReal) (hO : (W6 (F := Ideal) m ρ c (Proc.devRef .tc main_v39) : S50000x128.Idx → EReal) = O) :
    (fun (i : Node) (j : Feat) => O (ix2 i j))
      = kerH (dv m ρ c) (comb (fun m' k' => a2 (ix3 (1 : Fin 4) m' k')) (fun j' m' => a3 (ix3 (1 : Fin 4) j' m'))) (kerIn (dv m ρ c) (fun j => a4 (ix2 (0 : Fin 4) j))
          (kerAgg (gsOf (src m ρ c)) (hitOf (dst m ρ c)) (fun i j => Hp (ix2 i j)))) := by
  funext p q
  have hA : (V5 (F := Ideal) m ρ c main_v33 : S50000x128.Idx → EReal) = aggOf Hp (W3 (F := Ideal) m ρ c (Proc.devRef .tc main_v3) : IVec S650000 32) (W3 (F := Ideal) m ρ c (Proc.devRef .tc main_v6) : IVec S650000 32) := by
    rw [← hH]
    exact (agg1_term m ρ c).trans (by rw [keep_main_v3_4, keep_main_v6_4])
  have hW : (V5 (F := Ideal) m ρ c main_v35 : S128x128.Idx → EReal) = wtOf a3 a2 1 slices_S4x128x128_S1x128x128_1_0_0 := by
    rw [← h2, ← h3]
    exact (wt1_term m ρ c).trans (by rw [keep_main_v19_4, v19_term, keep_main_arg3_2, keep_main_arg2_2])
  have hd : (V5 (F := Ideal) m ρ c main_v17 : S50000x1.Idx → EReal) = broadcastInDim S50000x1 ![0] bcast_S50000_S50000x1_0 (W3 (F := Ideal) m ρ c (Proc.devRef .tc main_v16) : S50000.Idx → EReal) := (keep_main_v17_5 m ρ c).trans (v17_term m ρ c)
  have hb : (V5 (F := Ideal) m ρ c main_v38 : S1x128.Idx → EReal) = biasOf a4 0 slices_S4x128_S1x128_0_0 := by
    rw [← h4]
    exact (bias1_term m ρ c).trans (by rw [keep_main_arg4_4])
  have hOO : ((dat1 (F := Ideal) (V5 (F := Ideal) m ρ) c).arrAt 4 cfg1.N : S50000x128.Idx → EReal) = O :=
    (W6_arr (F := Ideal) m ρ c 4).symm.trans hO
  rw [RegVal.mid1_value (V5 (F := Ideal) m ρ) c _ _ _ _ hA hW hd hb O hOO p q]
  unfold kerH kerIn kerAgg
  rw [bcast_col_apply (by decide)]
  rw [show (W3 (F := Ideal) m ρ c (Proc.devRef .tc main_v16) : S50000.Idx → EReal) (ix1 p) = dv m ρ c p from rfl]
  refine congrArg (fun x => x * dv m ρ c p) (Finset.sum_congr rfl fun k _ => ?_)
  rw [wtOf_apply a3 a2 1 (by decide), aggOf_apply, biasOf_apply a4 0 (by decide)]
  try rfl

/-- Region 2: the edge sum scaled and biased, through layer 2's folded weight, scaled. -/
theorem layer2_value (a2 a3 : S4x128x128.Idx → EReal) (a4 : S4x128.Idx → EReal)
    (h2 : (m ((c : Thread nD τ).loc main_arg2) : S4x128x128.Idx → EReal) = a2) (h3 : (m ((c : Thread nD τ).loc main_arg3) : S4x128x128.Idx → EReal) = a3) (h4 : (m ((c : Thread nD τ).loc main_arg4) : S4x128.Idx → EReal) = a4)
    (Hp : S50000x128.Idx → EReal) (hH : (W6 (F := Ideal) m ρ c (Proc.devRef .tc main_v39) : S50000x128.Idx → EReal) = Hp)
    (O : S50000x128.Idx → EReal) (hO : (W8 (F := Ideal) m ρ c (Proc.devRef .tc main_v56) : S50000x128.Idx → EReal) = O) :
    (fun (i : Node) (j : Feat) => O (ix2 i j))
      = kerH (dv m ρ c) (comb (fun m' k' => a2 (ix3 (2 : Fin 4) m' k')) (fun j' m' => a3 (ix3 (2 : Fin 4) j' m'))) (kerIn (dv m ρ c) (fun j => a4 (ix2 (1 : Fin 4) j))
          (kerAgg (gsOf (src m ρ c)) (hitOf (dst m ρ c)) (fun i j => Hp (ix2 i j)))) := by
  funext p q
  have hA : (V7 (F := Ideal) m ρ c main_v50 : S50000x128.Idx → EReal) = aggOf Hp (W3 (F := Ideal) m ρ c (Proc.devRef .tc main_v3) : IVec S650000 32) (W3 (F := Ideal) m ρ c (Proc.devRef .tc main_v6) : IVec S650000 32) := by
    rw [← hH]
    exact (agg2_term m ρ c).trans (by rw [keep_main_v3_6, keep_main_v6_6])
  have hW : (V7 (F := Ideal) m ρ c main_v52 : S128x128.Idx → EReal) = wtOf a3 a2 2 slices_S4x128x128_S1x128x128_2_0_0 := by
    rw [← h2, ← h3]
    exact (wt2_term m ρ c).trans (by rw [keep_main_v19_6, v19_term, keep_main_arg3_2, keep_main_arg2_2])
  have hd : (V7 (F := Ideal) m ρ c main_v17 : S50000x1.Idx → EReal) = broadcastInDim S50000x1 ![0] bcast_S50000_S50000x1_0 (W3 (F := Ideal) m ρ c (Proc.devRef .tc main_v16) : S50000.Idx → EReal) := (keep_main_v17_7 m ρ c).trans (v17_term m ρ c)
  have hb : (V7 (F := Ideal) m ρ c main_v55 : S1x128.Idx → EReal) = biasOf a4 1 slices_S4x128_S1x128_1_0 := by
    rw [← h4]
    exact (bias2_term m ρ c).trans (by rw [keep_main_arg4_6])
  have hOO : ((dat2 (F := Ideal) (V7 (F := Ideal) m ρ) c).arrAt 4 cfg2.N : S50000x128.Idx → EReal) = O :=
    (W8_arr (F := Ideal) m ρ c 4).symm.trans hO
  rw [RegVal.mid2_value (V7 (F := Ideal) m ρ) c _ _ _ _ hA hW hd hb O hOO p q]
  unfold kerH kerIn kerAgg
  rw [bcast_col_apply (by decide)]
  rw [show (W3 (F := Ideal) m ρ c (Proc.devRef .tc main_v16) : S50000.Idx → EReal) (ix1 p) = dv m ρ c p from rfl]
  refine congrArg (fun x => x * dv m ρ c p) (Finset.sum_congr rfl fun k _ => ?_)
  rw [wtOf_apply a3 a2 2 (by decide), aggOf_apply, biasOf_apply a4 1 (by decide)]
  try rfl

/-- Region 3: the edge sum scaled and biased, through layer 3's folded weight, scaled. -/
theorem layer3_value (a2 a3 : S4x128x128.Idx → EReal) (a4 : S4x128.Idx → EReal)
    (h2 : (m ((c : Thread nD τ).loc main_arg2) : S4x128x128.Idx → EReal) = a2) (h3 : (m ((c : Thread nD τ).loc main_arg3) : S4x128x128.Idx → EReal) = a3) (h4 : (m ((c : Thread nD τ).loc main_arg4) : S4x128.Idx → EReal) = a4)
    (Hp : S50000x128.Idx → EReal) (hH : (W8 (F := Ideal) m ρ c (Proc.devRef .tc main_v56) : S50000x128.Idx → EReal) = Hp)
    (O : S50000x128.Idx → EReal) (hO : (W10 (F := Ideal) m ρ c (Proc.devRef .tc main_v73) : S50000x128.Idx → EReal) = O) :
    (fun (i : Node) (j : Feat) => O (ix2 i j))
      = kerH (dv m ρ c) (comb (fun m' k' => a2 (ix3 (3 : Fin 4) m' k')) (fun j' m' => a3 (ix3 (3 : Fin 4) j' m'))) (kerIn (dv m ρ c) (fun j => a4 (ix2 (2 : Fin 4) j))
          (kerAgg (gsOf (src m ρ c)) (hitOf (dst m ρ c)) (fun i j => Hp (ix2 i j)))) := by
  funext p q
  have hA : (V9 (F := Ideal) m ρ c main_v67 : S50000x128.Idx → EReal) = aggOf Hp (W3 (F := Ideal) m ρ c (Proc.devRef .tc main_v3) : IVec S650000 32) (W3 (F := Ideal) m ρ c (Proc.devRef .tc main_v6) : IVec S650000 32) := by
    rw [← hH]
    exact (agg3_term m ρ c).trans (by rw [keep_main_v3_8, keep_main_v6_8])
  have hW : (V9 (F := Ideal) m ρ c main_v69 : S128x128.Idx → EReal) = wtOf a3 a2 3 slices_S4x128x128_S1x128x128_3_0_0 := by
    rw [← h2, ← h3]
    exact (wt3_term m ρ c).trans (by rw [keep_main_v19_8, v19_term, keep_main_arg3_2, keep_main_arg2_2])
  have hd : (V9 (F := Ideal) m ρ c main_v17 : S50000x1.Idx → EReal) = broadcastInDim S50000x1 ![0] bcast_S50000_S50000x1_0 (W3 (F := Ideal) m ρ c (Proc.devRef .tc main_v16) : S50000.Idx → EReal) := (keep_main_v17_9 m ρ c).trans (v17_term m ρ c)
  have hb : (V9 (F := Ideal) m ρ c main_v72 : S1x128.Idx → EReal) = biasOf a4 2 slices_S4x128_S1x128_2_0 := by
    rw [← h4]
    exact (bias3_term m ρ c).trans (by rw [keep_main_arg4_8])
  have hOO : ((dat3 (F := Ideal) (V9 (F := Ideal) m ρ) c).arrAt 4 cfg3.N : S50000x128.Idx → EReal) = O :=
    (W10_arr (F := Ideal) m ρ c 4).symm.trans hO
  rw [RegVal.mid3_value (V9 (F := Ideal) m ρ) c _ _ _ _ hA hW hd hb O hOO p q]
  unfold kerH kerIn kerAgg
  rw [bcast_col_apply (by decide)]
  rw [show (W3 (F := Ideal) m ρ c (Proc.devRef .tc main_v16) : S50000.Idx → EReal) (ix1 p) = dv m ρ c p from rfl]
  refine congrArg (fun x => x * dv m ρ c p) (Finset.sum_congr rfl fun k _ => ?_)
  rw [wtOf_apply a3 a2 3 (by decide), aggOf_apply, biasOf_apply a4 2 (by decide)]
  try rfl

/-- Region 4: the edge sum scaled and biased. -/
theorem layer4_value (a4 : S4x128.Idx → EReal) (h4 : (m ((c : Thread nD τ).loc main_arg4) : S4x128.Idx → EReal) = a4)
    (Hp : S50000x128.Idx → EReal) (hH : (W10 (F := Ideal) m ρ c (Proc.devRef .tc main_v73) : S50000x128.Idx → EReal) = Hp)
    (O : S50000x128.Idx → EReal) (hO : (W12 (F := Ideal) m ρ c (Proc.devRef .tc main_v88) : S50000x128.Idx → EReal) = O) :
    (fun (i : Node) (j : Feat) => O (ix2 i j))
      = kerIn (dv m ρ c) (fun j => a4 (ix2 (3 : Fin 4) j)) (kerAgg (gsOf (src m ρ c)) (hitOf (dst m ρ c)) (fun i j => Hp (ix2 i j))) := by
  funext p q
  have hA : (V11 (F := Ideal) m ρ c main_v84 : S50000x128.Idx → EReal) = aggOf Hp (W3 (F := Ideal) m ρ c (Proc.devRef .tc main_v3) : IVec S650000 32) (W3 (F := Ideal) m ρ c (Proc.devRef .tc main_v6) : IVec S650000 32) := by
    rw [← hH]
    exact (agg4_term m ρ c).trans (by rw [keep_main_v3_10, keep_main_v6_10])
  have hd : (V11 (F := Ideal) m ρ c main_v17 : S50000x1.Idx → EReal) = broadcastInDim S50000x1 ![0] bcast_S50000_S50000x1_0 (W3 (F := Ideal) m ρ c (Proc.devRef .tc main_v16) : S50000.Idx → EReal) := (keep_main_v17_11 m ρ c).trans (v17_term m ρ c)
  have hb : (V11 (F := Ideal) m ρ c main_v87 : S1x128.Idx → EReal) = biasOf a4 3 slices_S4x128_S1x128_3_0 := by
    rw [← h4]
    exact (bias4_term m ρ c).trans (by rw [keep_main_arg4_10])
  have hOO : ((dat4 (F := Ideal) (V11 (F := Ideal) m ρ) c).arrAt 3 cfg4.N : S50000x128.Idx → EReal) = O :=
    (W12_arr (F := Ideal) m ρ c 3).symm.trans hO
  rw [RegVal.last_value (V11 (F := Ideal) m ρ) c _ _ _ hA hd hb O hOO p q]
  unfold kerIn kerAgg
  rw [bcast_col_apply (by decide), aggOf_apply, biasOf_apply a4 3 (by decide)]
  try rfl

/-! ## The program's value -/

/-- The result array of the kernel program is the four-layer network in its factored arrangement, over the edge
    lists, the node scale, the two weight stacks, the bias rows and the node features. -/
theorem ker_value (a0 : S50000x128.Idx → EReal) (a2 a3 : S4x128x128.Idx → EReal) (a4 : S4x128.Idx → EReal)
    (h0 : (m ((c : Thread nD τ).loc main_arg0) : S50000x128.Idx → EReal) = a0) (h2 : (m ((c : Thread nD τ).loc main_arg2) : S4x128x128.Idx → EReal) = a2) (h3 : (m ((c : Thread nD τ).loc main_arg3) : S4x128x128.Idx → EReal) = a3)
    (h4 : (m ((c : Thread nD τ).loc main_arg4) : S4x128.Idx → EReal) = a4)
    (O : S50000x128.Idx → EReal) (hO : (W12 (F := Ideal) m ρ c (Proc.devRef .tc main_v88) : S50000x128.Idx → EReal) = O) (p : Node) (q : Feat) :
    O (ix2 p q) = kerNet (gsOf (src m ρ c)) (hitOf (dst m ρ c)) (dv m ρ c)
        (fun l m' k => a2 (ix3 l m' k)) (fun l j m' => a3 (ix3 l j m')) (fun l j => a4 (ix2 l j)) (fun i k => a0 (ix2 i k)) p q := by
  have e0 := layer0_value m ρ c a0 a2 a3 h0 h2 h3 _ rfl
  have e1 := layer1_value m ρ c a2 a3 a4 h2 h3 h4 _ rfl _ rfl
  have e2 := layer2_value m ρ c a2 a3 a4 h2 h3 h4 _ rfl _ rfl
  have e3 := layer3_value m ρ c a2 a3 a4 h2 h3 h4 _ rfl _ rfl
  have e4 := layer4_value m ρ c a4 h4 _ rfl O hO
  rw [e0] at e1
  rw [e1] at e2
  rw [e2] at e3
  rw [e3] at e4
  unfold kerNet kerLayer
  exact congrFun (congrFun e4 p) q

end Cert.KernelIdeal.KerValue

end
-- ==== Proof.lean ====
/-
  The certificate of a stacked graph-convolution kernel against its jnp reference.

  Both programs take node features x : [50000, 128], an edge list edge_index : [2, 600000] (to which the self-loops are
  appended), and per layer two weight matrices and a bias, for four layers. With dv = 1/sqrt(degree) per node, the
  reference computes, layer by layer,
      x ← (∑ over edges e into node i of ((x · lin_wᵀ) · gcn_wᵀ)[src e] · (dv[src e] · dv[dst e])) + b .
  The kernel folds the two weights into one matrix once, multiplies rows by it in a Pallas region that also scales each
  row by dv (and, from the second layer on, first applies the previous layer's outstanding scale and bias), leaves the
  gather and the segment sum to the host, and applies the last scale and bias in a final region. Over the extended
  reals, on finite inputs, the two are the same function: sums of products of real numbers may be regrouped, a factor
  that is constant on a segment may be taken out of the segment's sum, and an edge whose target index lands at node i
  reads dv at i itself.

  The pieces: the specification and the layer law (Spec); the host gather and scatter-add read at an index, and the edge
  facts (Edges); the precondition gives finite inputs (Finite); the kernel program's run with its result buffer named
  (KerRun), what each region leaves in its output array (RegionValues), and the chain through the host stretches to the
  four factored layers (KerValue); the reference program's result as the four textbook layers (RefValue); the two
  programs' edge lists and scale are the same functions of edge_index (Leaves); and the assembly (Glue).
  The frames of the two kernel programs are the generated ones; the reference's frame is its run with the result dropped;
  the idealization rewrote no operation, so preserves is trivial.
-/
import proofs.«121010_j69320772158261_2_alg».proof.Defs
import proofs.«121010_j69320772158261_2_alg».proof.Proof.Gen.Kernel
import proofs.«121010_j69320772158261_2_alg».proof.Proof.Gen.Kernel.Frame
import proofs.«121010_j69320772158261_2_alg».proof.Proof.Gen.KernelIdeal
import proofs.«121010_j69320772158261_2_alg».proof.Proof.Gen.KernelIdeal.Frame
import proofs.«121010_j69320772158261_2_alg».proof.Proof.Gen.ReferenceIdeal
import proofs.«121010_j69320772158261_2_alg».proof.Proof.Gen.Pre_finite_inputs
import proofs.«121010_j69320772158261_2_alg».proof.Proof.Glue
import proofs.«121010_j69320772158261_2_alg».proof.Proof.KerValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference program has no kernel region: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The kernel program's result is the four factored layers of its arguments. -/
theorem kernel_value : Cert.Glue.KerValueStmt :=
  fun m ρ c a0 a2 a3 a4 h0 h2 h3 h4 O hO p q => Cert.KernelIdeal.KerValue.ker_value m ρ c a0 a2 a3 a4 h0 h2 h3 h4 O hO p q

/-- The two idealized programs end with equal results. -/
theorem algebraic : Cert.algebraic_KernelIdeal_ReferenceIdeal := Cert.Glue.algebraic_of kernel_value

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
